-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x8192 : Shape := ⟨2, ![8192, 8192]⟩
abbrev S256x256 : Shape := ⟨2, ![256, 256]⟩
abbrev S256 : Shape := ⟨1, ![256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S8192x256 .f32) (main_arg1 : FVec F S8192x8192 .f32) (main_arg2 : FVec F S256x256 .f32) (main_arg3 : FVec F S256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S8192x256 : Shape := ⟨2, ![8192, 256]⟩
abbrev S8192x8192 : Shape := ⟨2, ![8192, 8192]⟩
abbrev S256x256 : Shape := ⟨2, ![256, 256]⟩
abbrev S256 : Shape := ⟨1, ![256]⟩
abbrev S1x256 : Shape := ⟨2, ![1, 256]⟩
abbrev S512x8192 : Shape := ⟨2, ![512, 8192]⟩
abbrev S512x256 : Shape := ⟨2, ![512, 256]⟩

abbrev nBuf : Space → Nat
  | .hbm => 6
  | .vmem => 8
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S256x256, .f32⟩
  | .hbm, ⟨3, _⟩ => ⟨S256, .f32⟩
  | .hbm, ⟨4, _⟩ => ⟨S1x256, .f32⟩
  | .hbm, ⟨5, _⟩ => ⟨S8192x256, .f32⟩
  | .local _ .vmem, ⟨0, _⟩ => ⟨S8192x256, .f32⟩
  | .local _ .vmem, ⟨1, _⟩ => ⟨S256x256, .f32⟩
  | .local _ .vmem, ⟨2, _⟩ => ⟨S512x8192, .f32⟩
  | .local _ .vmem, ⟨3, _⟩ => ⟨S512x8192, .f32⟩
  | .local _ .vmem, ⟨4, _⟩ => ⟨S1x256, .f32⟩
  | .local _ .vmem, ⟨5, _⟩ => ⟨S512x256, .f32⟩
  | .local _ .vmem, ⟨6, _⟩ => ⟨S512x256, .f32⟩
  | .local _ .vmem, ⟨7, _⟩ => ⟨S8192x256, .bf16⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8192x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S256_S1x256 : S256.ShapeCasts S1x256
  inb_S8192x256_S8192x256_0_0 : ∀ a, (![0, 0] : Fin 2 → Nat) a + S8192x256.size a ≤ S8192x256.size a
  h_S8192x256 : 0 < S8192x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S8192x256_S8192x256 : S8192x256.ShapeCasts S8192x256
  packedbf16_S8192x256_S8192x256_0_0 : (Rect.unit (s := S8192x256) ![0, 0] S8192x256.size inb_S8192x256_S8192x256_0_0).PackedRows (EltTy.packing .bf16)
  inb_S512x8192_S512x8192_0_0 : ∀ a, (![0, 0] : Fin 2 → Nat) a + S512x8192.size a ≤ S512x8192.size a
  h_S512x8192 : 0 < S512x8192.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  dot_S8192x256_S256x256_S8192x256_1_0_0_1_n_n_wf : DotDims.WF S8192x256 S256x256 S8192x256 [1] [0] [0] [1] [] []
  dot_S512x8192_S8192x256_S512x256_1_0_0_1_n_n_wf : DotDims.WF S512x8192 S8192x256 S512x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x256.size a ≤ S8192x256.size a
  hwx0_0 : ∀ i : grid0.Coords, EltTy.bits .f32 = 32 ∨ (Rect.block (s := S8192x256) S8192x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x8192.size a ≤ S8192x8192.size a
  hwx0_2 : ∀ i : grid0.Coords, EltTy.bits .f32 = 32 ∨ (Rect.block (s := S8192x8192) S512x8192.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S8192x256.size a
  hwx0_4 : ∀ i : grid0.Coords, EltTy.bits .f32 = 32 ∨ (Rect.block (s := S8192x256) S512x256.size (cc0_transform_4 i) (hinb0_4 i)).WholeWords (EltTy.packing .f32)

variable [Facts₀]

def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S512x8192_S8192x256_S512x256_1_0_0_1_n_n : DotDims S512x8192 S8192x256 S512x256 where
  lhsContracting := [1]
  rhsContracting := [0]
  lhsNonContracting := [0]
  rhsNonContracting := [1]
  lhsBatch := []
  rhsBatch := []
  wf := dot_S512x8192_S8192x256_S512x256_1_0_0_1_n_n_wf

abbrev win0_0 : Pipeline.Window sig grid0 :=
  Pipeline.Window.ofSpec (Memref.whole main_arg0) S8192x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x8192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S512x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x256 : Shape := ⟨2, ![8192, 256]⟩
abbrev S8192x8192 : Shape := ⟨2, ![8192, 8192]⟩
abbrev S256x256 : Shape := ⟨2, ![256, 256]⟩
abbrev S256 : Shape := ⟨1, ![256]⟩
abbrev S_ : Shape := ⟨0, ![]⟩
abbrev S512x256 : Shape := ⟨2, ![512, 256]⟩
abbrev S1x256 : Shape := ⟨2, ![1, 256]⟩
abbrev S1024x1024 : Shape := ⟨2, ![1024, 1024]⟩
abbrev S1024x256 : Shape := ⟨2, ![1024, 256]⟩

abbrev nBuf : Space → Nat
  | .hbm => 16
  | .vmem => 13
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S256x256, .f32⟩
  | .hbm, ⟨3, _⟩ => ⟨S256, .f32⟩
  | .hbm, ⟨4, _⟩ => ⟨S_, .i32⟩
  | .hbm, ⟨5, _⟩ => ⟨S_, .f32⟩
  | .hbm, ⟨6, _⟩ => ⟨S8192x256, .f32⟩
  | .hbm, ⟨7, _⟩ => ⟨S_, .i32⟩
  | .hbm, ⟨8, _⟩ => ⟨S_, .f32⟩
  | .hbm, ⟨9, _⟩ => ⟨S256x256, .f32⟩
  | .hbm, ⟨10, _⟩ => ⟨S8192x256, .bf16⟩
  | .hbm, ⟨11, _⟩ => ⟨S_, .i32⟩
  | .hbm, ⟨12, _⟩ => ⟨S_, .f32⟩
  | .hbm, ⟨13, _⟩ => ⟨S256, .f32⟩
  | .hbm, ⟨14, _⟩ => ⟨S1x256, .f32⟩
  | .hbm, ⟨15, _⟩ => ⟨S8192x256, .f32⟩
  | .local _ .vmem, ⟨0, _⟩ => ⟨S512x256, .f32⟩
  | .local _ .vmem, ⟨1, _⟩ => ⟨S512x256, .f32⟩
  | .local _ .vmem, ⟨2, _⟩ => ⟨S256x256, .f32⟩
  | .local _ .vmem, ⟨3, _⟩ => ⟨S512x256, .bf16⟩
  | .local _ .vmem, ⟨4, _⟩ => ⟨S512x256, .bf16⟩
  | .local _ .vmem, ⟨5, _⟩ => ⟨S512x256, .f32⟩
  | .local _ .vmem, ⟨6, _⟩ => ⟨S1024x1024, .f32⟩
  | .local _ .vmem, ⟨7, _⟩ => ⟨S1024x1024, .f32⟩
  | .local _ .vmem, ⟨8, _⟩ => ⟨S1024x256, .bf16⟩
  | .local _ .vmem, ⟨9, _⟩ => ⟨S1024x256, .bf16⟩
  | .local _ .vmem, ⟨10, _⟩ => ⟨S1x256, .f32⟩
  | .local _ .vmem, ⟨11, _⟩ => ⟨S1024x256, .f32⟩
  | .local _ .vmem, ⟨12, _⟩ => ⟨S1024x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_v2 : Ref sig .tc := ⟨.hbm, 10, rfl⟩
abbrev main_c_1 : Ref sig .tc := ⟨.hbm, 11, rfl⟩
abbrev main_call2_v0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨3, ![16, 1, 1], ![false, false, false]⟩

def k0_cond2 (i : grid0.Coords) : BitVec 1 :=
  let arg2 : BitVec 32 := BitVec.ofNat 32 (i 2).val
  let c0_i32_8 : BitVec 32 := 0#32
  let v15 : BitVec 1 := Scalar.cmpi .eq arg2 c0_i32_8
  let v16 : BitVec 32 := Scalar.extui v15
  let c0_i32_9 : BitVec 32 := 0#32
  let v17 : BitVec 1 := Scalar.cmpi .ne v16 c0_i32_9
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![8, 1, 8], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, true, false]

abbrev stage1_3 : Fin 2 → Memref sig .tc .vmem S1024x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  pads_S8192x256_S8192x256_000_000 : S8192x256.Pads (![0, 0] : Fin 2 → Nat) ![0, 0] ![0, 0] S8192x256
  h_S_ : 0 < S_.numel
  pads_S256x256_S256x256_000_000 : S256x256.Pads (![0, 0] : Fin 2 → Nat) ![0, 0] ![0, 0] S256x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  packedbf16_S512x256_S512x256_0_0 : (Rect.unit (s := S512x256) ![0, 0] S512x256.size inb_S512x256_S512x256_0_0).PackedRows (EltTy.packing .bf16)
  pads_S256_S256_000 : S256.Pads (![0] : Fin 1 → Nat) ![0] ![0] S256
  shapeCasts_S256_S1x256 : S256.ShapeCasts S1x256
  inb_S1024x256_S1024x256_0_0 : ∀ a, (![0, 0] : Fin 2 → Nat) a + S1024x256.size a ≤ S1024x256.size a
  h_S1024x256 : 0 < S1024x256.numel
  inb_S1024x1024_S1024x1024_0_0 : ∀ a, (![0, 0] : Fin 2 → Nat) a + S1024x1024.size a ≤ S1024x1024.size a
  h_S1024x1024 : 0 < S1024x1024.numel
  shapeCasts_S1024x256_S1024x256 : S1024x256.ShapeCasts S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  dot_S512x256_S256x256_S512x256_1_0_0_1_n_n_wf : DotDims.WF S512x256 S256x256 S512x256 [1] [0] [0] [1] [] []
  dot_S1024x1024_S1024x256_S1024x256_1_0_0_1_n_n_wf : DotDims.WF S1024x1024 S1024x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S8192x256.size a
  hwx0_0 : ∀ i : grid0.Coords, EltTy.bits .f32 = 32 ∨ (Rect.block (s := S8192x256) S512x256.size (cc0_transform_0 i) (hinb0_0 i)).WholeWords (EltTy.packing .f32)
  hstage0_1 : ∀ j, (stage0_1 j).IsWhole
  nbuf0_1 : grid0.bufCount reads0_1 false = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S8192x256.size a
  hwx0_2 : ∀ i : grid0.Coords, EltTy.bits .bf16 = 32 ∨ (Rect.block (s := S8192x256) S512x256.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x8192.size a
  hwx1_0 : ∀ i : grid1.Coords, EltTy.bits .f32 = 32 ∨ (Rect.block (s := S8192x8192) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S8192x256.size a
  hwx1_1 : ∀ i : grid1.Coords, EltTy.bits .bf16 = 32 ∨ (Rect.block (s := S8192x256) S1024x256.size (cc1_transform_1 i) (hinb1_1 i)).WholeWords (EltTy.packing .bf16)
  hstage1_2 : ∀ j, (stage1_2 j).IsWhole
  nbuf1_2 : grid1.bufCount reads1_2 false = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x256.size a ≤ S8192x256.size a
  hwx1_3 : ∀ i : grid1.Coords, EltTy.bits .f32 = 32 ∨ (Rect.block (s := S8192x256) S1024x256.size (cc1_transform_3 i) (hinb1_3 i)).WholeWords (EltTy.packing .f32)

variable [Facts₀]

def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.ofSpec (Memref.whole main_v0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x256.size cc0_transform_1 reads0_1 false false 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x256.size cc1_transform_2 reads1_2 false false 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1024x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== Proof.Spec.lean ====
/-
  The layer both programs compute, over the extended reals: with
      support(k, q) = Σ_{l < 256} x(k, l) · w(l, q)        (k < 8192, q < 256)
  the result at (p, q) is
      ( Σ_{k < 8192} adj(p, k) · support(k, q) ) + bias(q).
  The bias reaches both programs as a one-row array [1, 256]; `outOf` is stated over that row, `out` over the
  rank-one bias. The only law used between the two programs is that a sum over 8192 consecutive indices is the sum
  of its eight tiles of 1024, taken tile after tile from zero (`tileSum`, `tileSum_all`): addition on the extended reals is
  commutative and associative, so no finiteness is needed.
-/
import Idealize.ShloMosaic.Lib.ValueIdx
import Idealize.ShloMosaic.PureOps.Ideal
import Idealize.ShloMosaic.PureOps.Ideal.Laws

noncomputable section

namespace Gcn

open Idealize.ShloMosaic Idealize.ShloMosaic.ValueIdx

abbrev Sx : Shape := ⟨2, ![8192, 256]⟩
abbrev Sadj : Shape := ⟨2, ![8192, 8192]⟩
abbrev Sw : Shape := ⟨2, ![256, 256]⟩
abbrev Sb : Shape := ⟨1, ![256]⟩
abbrev Srow : Shape := ⟨2, ![1, 256]⟩

/-- support(k, q): row k of x against column q of w. -/
def supportAt (x : Sx.Idx → EReal) (w : Sw.Idx → EReal) (k : Fin 8192) (q : Fin 256) : EReal :=
  ∑ l : Fin 256, x (ix2 k l) * w (ix2 l q)

/-- The support matrix as an array. -/
def support (x : Sx.Idx → EReal) (w : Sw.Idx → EReal) : Sx.Idx → EReal :=
  fun j => supportAt x w (j 0) (j 1)

theorem support_apply (x : Sx.Idx → EReal) (w : Sw.Idx → EReal) (k : Fin 8192) (q : Fin 256) :
    support x w (ix2 k q) = ∑ l : Fin 256, x (ix2 k l) * w (ix2 l q) := rfl

/-- The result at (p, q), the bias read from its one-row array. -/
def outAt (adj : Sadj.Idx → EReal) (s : Sx.Idx → EReal) (brow : Srow.Idx → EReal)
    (p : Fin 8192) (q : Fin 256) : EReal :=
  (∑ k : Fin 8192, adj (ix2 p k) * s (ix2 k q)) + brow (ix2 0 q)

/-- The result array over the one-row bias. -/
def outOf (adj : Sadj.Idx → EReal) (s : Sx.Idx → EReal) (brow : Srow.Idx → EReal) : Sx.Idx → EReal :=
  fun j => outAt adj s brow (j 0) (j 1)

theorem outOf_apply (adj : Sadj.Idx → EReal) (s : Sx.Idx → EReal) (brow : Srow.Idx → EReal)
    (p : Fin 8192) (q : Fin 256) :
    outOf adj s brow (ix2 p q) = (∑ k : Fin 8192, adj (ix2 p k) * s (ix2 k q)) + brow (ix2 0 q) := rfl

/-- The result array of the layer, over the four argument arrays. -/
def out (x : Sx.Idx → EReal) (adj : Sadj.Idx → EReal) (w : Sw.Idx → EReal) (b : Sb.Idx → EReal) :
    Sx.Idx → EReal :=
  fun j => (∑ k : Fin 8192, adj (ix2 (j 0) k) * supportAt x w k (j 1)) + b (ix1 (j 1))

/-- The row form is the layer, once its support array and its bias row are the layer's. -/
theorem outOf_eq_out (x : Sx.Idx → EReal) (adj : Sadj.Idx → EReal) (w : Sw.Idx → EReal)
    (b : Sb.Idx → EReal) (s : Sx.Idx → EReal) (brow : Srow.Idx → EReal)
    (hs : ∀ (k : Fin 8192) (q : Fin 256), s (ix2 k q) = supportAt x w k q)
    (hb : ∀ q : Fin 256, brow (ix2 0 q) = b (ix1 q)) :
    outOf adj s brow = out x adj w b := by
  funext j
  obtain ⟨p, q, rfl⟩ : ∃ (p : Fin 8192) (q : Fin 256), j = ix2 p q := ⟨j 0, j 1, eq_ix2 j⟩
  show (∑ k : Fin 8192, adj (ix2 p k) * s (ix2 k q)) + brow (ix2 0 q)
    = (∑ k : Fin 8192, adj (ix2 p k) * supportAt x w k q) + b (ix1 q)
  rw [hb q]
  exact congrArg (· + b (ix1 q)) (Finset.sum_congr rfl fun k _ => by rw [hs k q])

/-! ## A sum of 8192 terms, tile after tile -/

/-- The k-th index of tile c (tiles of 1024 consecutive indices). -/
def tileIdx (c : Fin 8) (k : Fin 1024) : Fin 8192 := ⟨1024 * c.val + k.val, by have := c.isLt; have := k.isLt; omega⟩

/-- The sum of f over tile c. -/
def tileSum (f : Fin 8192 → EReal) (c : Fin 8) : EReal := ∑ k : Fin 1024, f (tileIdx c k)

/-- The running sum over the first n tiles, from zero, tile after tile. -/
def partialSum (z : EReal) (f : Fin 8192 → EReal) : (n : ℕ) → n ≤ 8 → EReal
  | 0, _ => z
  | n + 1, h => partialSum z f n (Nat.le_of_succ_le h) + tileSum f ⟨n, h⟩

theorem partialSum_succ (z : EReal) (f : Fin 8192 → EReal) (n : ℕ) (h : n + 1 ≤ 8) :
    partialSum z f (n + 1) h = partialSum z f n (Nat.le_of_succ_le h) + tileSum f ⟨n, h⟩ := rfl

/-- All eight tiles from zero make the whole sum. -/
theorem partialSum_all (f : Fin 8192 → EReal) : partialSum 0 f 8 (le_refl 8) = ∑ k : Fin 8192, f k := by
  have key : ∀ (n : ℕ) (h : n ≤ 8), partialSum 0 f n h = ∑ c : Fin 8, if c.val < n then tileSum f c else 0 := by
    intro n
    induction n with
    | zero => intro _; simp [partialSum]
    | succ n ih =>
      intro h
      rw [partialSum_succ, ih (Nat.le_of_succ_le h)]
      rw [← Finset.sum_erase_add (a := (⟨n, h⟩ : Fin 8)) _ _ (Finset.mem_univ _),
        ← Finset.sum_erase_add (a := (⟨n, h⟩ : Fin 8)) (s := Finset.univ)
          (f := fun c : Fin 8 => if c.val < n + 1 then tileSum f c else 0) (Finset.mem_univ _)]
      simp only [lt_irrefl, if_false, add_zero, Nat.lt_succ_self, if_true]
      congr 1
      refine Finset.sum_congr rfl fun c hc => ?_
      have hne : c.val ≠ n := fun e => (Finset.mem_erase.mp hc).1 (Fin.ext e)
      by_cases hlt : c.val < n
      · rw [if_pos hlt, if_pos (Nat.lt_succ_of_lt hlt)]
      · rw [if_neg hlt, if_neg (by omega)]
  rw [key 8 (le_refl 8)]
  have : ∀ c : Fin 8, (if c.val < 8 then tileSum f c else 0) = tileSum f c := fun c => if_pos c.isLt
  simp only [this]
  unfold tileSum
  rw [← Fintype.sum_prod_type']
  exact Fintype.sum_equiv (finProdFinEquiv (m := 8) (n := 1024)) _ _ (fun x => by
    congr 1
    apply Fin.ext
    show 1024 * x.1.val + x.2.val = (finProdFinEquiv x).val
    simp [finProdFinEquiv]; omega)

end Gcn

end
-- ==== Proof.KernelPieces.lean ====
/-
  What one run of the kernel's body leaves behind, for any float values: at the first grid point it stores the support
  matrix x · w into the scratch buffer, whole, and the output block is the row panel of the adjacency times that
  matrix plus the bias row; at every later point the scratch is left as found and the output block is the panel times
  the scratch it finds, plus the bias row. Each is the payload of the body's one covering store, its loads reading
  whole buffers.
-/
import proofs.«176293_g2000104153489032_pallasbulk_716_5_alg».proof.Defs
import proofs.«176293_g2000104153489032_pallasbulk_716_5_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.GcnValue

open Cert.KernelIdeal Cert.KernelIdeal.Gen

variable {F : FTy → Type} [FloatOps F]

/-- The two-axis zero offsets. -/
theorem hz : (![0, 0] : Fin 2 → Nat) = fun _ => 0 := funext fun a => by fin_cases a <;> rfl

/-- At a point after the first the body stores once into the output block: the product of the row panel with the
    scratch it finds, plus the bias row. -/
theorem out_B (c : Dev nD) (i : grid0.Coords)
    (a1 : Memref sig .tc .vmem S8192x256 .f32) (h1 : a1.IsWhole) (a2 : Memref sig .tc .vmem S256x256 .f32) (h2 : a2.IsWhole)
    (a3 : Memref sig .tc .vmem S512x8192 .f32) (h3 : a3.IsWhole) (a4 : Memref sig .tc .vmem S1x256 .f32) (h4 : a4.IsWhole)
    (a5 : Memref sig .tc .vmem S512x256 .f32) (h5 : a5.IsWhole) (a6 : Memref sig .tc .vmem S8192x256 .bf16) (h6 : a6.IsWhole)
    (hc : ¬cond0_0 i) (x0 : Vec F S8192x256 .f32) (x1 : Vec F S256x256 .f32) (x2 : Vec F S512x8192 .f32) (x3 : Vec F S1x256 .f32)
    (xs0 : Vec F S8192x256 .bf16) :
    out0_B_4 c i a1 h1 a2 h2 a3 h3 a4 h4 a5 h5 a6 h6 hc x0 x1 x2 x3 xs0 = k0_pay2 x2 xs0 x3 := by
  unfold out0_B_4
  rw [View.read_writes_eq_canon _ _ _ (cover0_B_4 c i a1 h1 a2 h2 a3 h3 a4 h4 a5 h5 a6 h6 hc x0 x1 x2 x3 xs0)]
  unfold kernelRun0_B
  dsimp only
  rw [View.canon_unit_zero hz]
  simp only [View.readAt_eq_ld, h3.read_unread, h4.read_unread, h6.read_unread, View.ld_unit_zero (S := S512x8192) hz,
    View.ld_unit_zero (S := S8192x256) hz, View.ld_unit_zero (S := S1x256) hz]

/-- At the first point the body stores the support matrix x · w into the scratch, whole. -/
theorem sout_A (c : Dev nD) (i : grid0.Coords)
    (a1 : Memref sig .tc .vmem S8192x256 .f32) (h1 : a1.IsWhole) (a2 : Memref sig .tc .vmem S256x256 .f32) (h2 : a2.IsWhole)
    (a3 : Memref sig .tc .vmem S512x8192 .f32) (h3 : a3.IsWhole) (a4 : Memref sig .tc .vmem S1x256 .f32) (h4 : a4.IsWhole)
    (a5 : Memref sig .tc .vmem S512x256 .f32) (h5 : a5.IsWhole) (a6 : Memref sig .tc .vmem S8192x256 .bf16) (h6 : a6.IsWhole)
    (hc : cond0_0 i) (x0 : Vec F S8192x256 .f32) (x1 : Vec F S256x256 .f32) (x2 : Vec F S512x8192 .f32) (x3 : Vec F S1x256 .f32) :
    sout0_A_0 c i a1 h1 a2 h2 a3 h3 a4 h4 a5 h5 a6 h6 hc x0 x1 x2 x3 = k0_pay1 x0 x1 := by
  unfold sout0_A_0
  rw [View.read_writes_eq_canon _ _ _ (scover0_A_0 c i a1 h1 a2 h2 a3 h3 a4 h4 a5 h5 a6 h6 hc x0 x1 x2 x3)]
  unfold kernelRun0_A
  dsimp only
  sl_unfold_words
  rw [View.canon_unit_zero hz]
  simp only [View.readAt_eq_ld, h1.read_unread, h2.read_unread, View.ld_unit_zero (S := S8192x256) hz,
    View.ld_unit_zero (S := S256x256) hz]

/-- At the first point the body then reads the scratch back — the support matrix it has just stored — and stores the
    product of the row panel with it, plus the bias row, into the output block. -/
theorem out_A (c : Dev nD) (i : grid0.Coords)
    (a1 : Memref sig .tc .vmem S8192x256 .f32) (h1 : a1.IsWhole) (a2 : Memref sig .tc .vmem S256x256 .f32) (h2 : a2.IsWhole)
    (a3 : Memref sig .tc .vmem S512x8192 .f32) (h3 : a3.IsWhole) (a4 : Memref sig .tc .vmem S1x256 .f32) (h4 : a4.IsWhole)
    (a5 : Memref sig .tc .vmem S512x256 .f32) (h5 : a5.IsWhole) (a6 : Memref sig .tc .vmem S8192x256 .bf16) (h6 : a6.IsWhole)
    (hc : cond0_0 i) (x0 : Vec F S8192x256 .f32) (x1 : Vec F S256x256 .f32) (x2 : Vec F S512x8192 .f32) (x3 : Vec F S1x256 .f32) :
    out0_A_4 c i a1 h1 a2 h2 a3 h3 a4 h4 a5 h5 a6 h6 hc x0 x1 x2 x3 = k0_pay2 x2 (k0_pay1 x0 x1) x3 := by
  unfold out0_A_4
  rw [View.read_writes_eq_canon _ _ _ (cover0_A_4 c i a1 h1 a2 h2 a3 h3 a4 h4 a5 h5 a6 h6 hc x0 x1 x2 x3)]
  unfold kernelRun0_A
  dsimp only
  sl_unfold_words
  rw [View.canon_unit_zero hz, View.readCov_unit_zero (S := S8192x256) _ hz]
  simp only [View.readAt_eq_ld, h1.read_unread, h2.read_unread, h3.read_unread, h4.read_unread,
    View.ld_unit_zero (S := S8192x256) hz, View.ld_unit_zero (S := S256x256) hz, View.ld_unit_zero (S := S512x8192) hz,
    View.ld_unit_zero (S := S1x256) hz]

end Cert.KernelIdeal.GcnValue
end
-- ==== Proof.KernelScratch.lean ====
/-
  Over the grid, for any float values: the scratch buffer holds the support matrix x · w from the first point on —
  the first point stores it and no later point stores into the scratch — so at every point the output block the body
  leaves is the row panel of the adjacency at that point times the support matrix, plus the bias row.
-/
import proofs.«176293_g2000104153489032_pallasbulk_716_5_alg».proof.Proof.KernelPieces

noncomputable section

open Idealize.ShloMosaic Idealize.ShloMosaic.TcCoe Idealize.SL.Sem
open Idealize.ShloMosaic.Pipeline (Dat)

namespace Cert.KernelIdeal.GcnValue

open Cert.KernelIdeal Cert.KernelIdeal.Gen

variable {F : FTy → Type} [FloatOps F]
variable (m : (ℓ : Loc nD τ sig) → Buf (Elt F) ℓ)

/-- The grid has a first point. -/
theorem N_pos : 0 < cfg0.N := by rw [show cfg0.N = 16 from N_0]; decide

/-- The support matrix the first point stores: the product of the first two windows' blocks there (each the whole of
    its array). -/
def supp (c : Dev nD) : Vec F S8192x256 .bf16 := k0_pay1 (iblk m c 0 ⟨0, N_pos⟩) (iblk m c 1 ⟨0, N_pos⟩)

/-- After every point the scratch holds the support matrix: the first point stores it, the others leave it. -/
theorem scratch_eq (c : Dev nD) : ∀ (n : ℕ) (hn : n < cfg0.N), (outsAt0 m c n hn).2 = supp m c := by
  intro n
  induction n using Nat.strong_induction_on with
  | _ n ih =>
    intro hn
    have hN : cfg0.N = 16 := N_0
    by_cases h0 : n % 16 = 0
    · have hn0 : n = 0 := by omega
      subst hn0
      rw [outsAt0_A m c ⟨0, hn⟩ h0]
      dsimp only
      rw [sout_A]
      rfl
    · rw [outsAt0_B m c ⟨n, hn⟩ h0]
      dsimp only
      unfold sout0_B_0
      exact ih (n - 1) (by omega) _

/-- What the body leaves in the output block at point t: the panel at t times the support matrix, plus the bias row. -/
theorem out_eq (c : Dev nD) (t : Fin cfg0.N) :
    (outsAt0 m c t.val t.isLt).1 = k0_pay2 (iblk m c 2 t) (supp m c) (iblk m c 3 t) := by
  have hN : cfg0.N = 16 := N_0
  by_cases h0 : t.val % 16 = 0
  · obtain ⟨n, hn⟩ := t
    have hn0 : n = 0 := by dsimp only at h0; omega
    subst hn0
    rw [outsAt0_A m c ⟨0, hn⟩ h0]
    dsimp only
    rw [out_A]
    rfl
  · rw [outsAt0_B m c t h0]
    dsimp only
    rw [out_B, scratch_eq m c (t.val - 1) _]

end Cert.KernelIdeal.GcnValue
end
-- ==== Proof.LibPlain.lean ====
/-
  General facts, at the ideal values, about the plain two-dimensional matrix product and about reductions along the
  rows of a two-dimensional array, stated at indices built from their two coordinates; and two regroupings of a finite
  sum in a commutative monoid (by tiles of equal length; against a mask that keeps one index).
-/
import Idealize.ShloMosaic.Lib.ValueIdx
import Idealize.ShloMosaic.PureOps.Ideal.Laws
import Idealize.ShloMosaic.Lib.Pipeline.Value

noncomputable section

namespace Idealize.ShloMosaic

open ValueIdx

/-- In the plain product `[M,K] × [K,N]` the left operand is read at (row, k) -/
theorem plain_lhsIdx {M K N : Nat} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- and the right operand at (k, column). -/
theorem plain_rhsIdx {M K N : Nat} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- The matrix unit's product into a zero accumulator, at (p, q): the sum over k of L(p,k) · R(k,q). -/
theorem Ideal.matmul_plain_zero_apply {M K N : Nat} {φ₁ φ₂ : FTy} (prec : Option ContractPrecision)
    (L : FVec Ideal ⟨2, ![M, K]⟩ φ₁) (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) := by
  rw [Ideal.matmul_constant_zero_apply, ← Equiv.sum_comp (contrEquiv1 (DotDims.plain M K N) K rfl rfl).symm]
  exact Finset.sum_congr rfl fun k _ => by rw [plain_lhsIdx, plain_rhsIdx]

/-- The host's product, at (p, q): the same sum. -/
theorem Ideal.dotGeneral_plain_apply {M K N : Nat} {φ₁ φ₂ : FTy} (prec : Option ContractPrecision) (sched : HostSchedule)
    (L : FVec Ideal ⟨2, ![M, K]⟩ φ₁) (R : FVec Ideal ⟨2, ![K, N]⟩ φ₂) (p : Fin M) (q : Fin N) :
    FloatOps.dotGeneral (DotDims.plain M K N) prec sched L R (ix2 p q)
      = ∑ k : Fin K, L (ix2 p k) * R (ix2 k q) := by
  rw [Ideal.dotGeneral_apply, ← Equiv.sum_comp (contrEquiv1 (DotDims.plain M K N) K rfl rfl).symm]
  exact Finset.sum_congr rfl fun k _ => by rw [plain_lhsIdx, plain_rhsIdx]

/-- Reducing the second axis of an `[M,N]` array: the source index over row `p` with coordinate `q` inserted is (p, q). -/
theorem lift_rows {M N : Nat} (h : (⟨2, ![M, N]⟩ : Shape).Reduces [1] ⟨1, ![M]⟩) (p : Fin M) (q : Fin N) :
    h.lift (ix1 p) q = ix2 p q := by
  funext a
  apply Fin.ext
  match a with
  | ⟨0, _⟩ => rfl
  | ⟨1, _⟩ => rfl

/-- A lane sum along the rows, at row `p`: the sum over the row. -/
theorem Ideal.multiReduction_add_rows {M N : Nat} {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.add.neutral φ hφ) (p : Fin M) :
    multiReduction .add [1] ⟨1, ![M]⟩ src acc h hφ hacc (ix1 p) = ∑ q : Fin N, src (ix2 p q) := by
  rw [Ideal.multiReduction_add_single]
  exact Finset.sum_congr rfl fun q _ => congrArg src (lift_rows h p q)

/-- A lane maximum along the rows, at row `p`: the fold of `max` over the row from the accumulator's value. -/
theorem Ideal.multiReduction_maximumf_rows {M N : Nat} {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.maximumf.neutral φ hφ) (p : Fin M) :
    multiReduction .maximumf [1] ⟨1, ![M]⟩ src acc h hφ hacc (ix1 p)
      = (Finset.univ : Finset (Fin N)).fold max (FloatOps.ofBits φ acc) (fun q => src (ix2 p q)) := by
  rw [Ideal.multiReduction_maximumf_single]
  exact congrArg (fun f => Finset.fold max (FloatOps.ofBits φ acc) f Finset.univ) (funext fun q => congrArg src (lift_rows h p q) : src ∘ h.lift (ix1 p) = fun q => src (ix2 p q))

/-- The same two facts with the accumulator's word spelt as a kernel's text spells it (the -inf word; the zero word), the
    format's proof the literal one. -/
theorem Ideal.multiReduction_maximumf_rows_f32 {M N : Nat} (src : FVec Ideal ⟨2, ![M, N]⟩ .f32) (h : (⟨2, ![M, N]⟩ : Shape).Reduces [1] ⟨1, ![M]⟩)
    (hacc : (0xFF800000#32 : BitVec 32) = 0xFF800000#32) (p : Fin M) :
    multiReduction .maximumf [1] ⟨1, ![M]⟩ src 0xFF800000#32 h (.inl rfl) hacc (ix1 p)
      = (Finset.univ : Finset (Fin N)).fold max (Ideal.ofBits .f32 0xFF800000#32) (fun q => src (ix2 p q)) :=
  Ideal.multiReduction_maximumf_rows src _ h (.inl rfl) hacc p
theorem Ideal.multiReduction_add_rows_f32 {M N : Nat} (src : FVec Ideal ⟨2, ![M, N]⟩ .f32) (h : (⟨2, ![M, N]⟩ : Shape).Reduces [1] ⟨1, ![M]⟩)
    (hacc : (0x00000000#32 : BitVec 32) = 0x00000000#32) (p : Fin M) :
    multiReduction .add [1] ⟨1, ![M]⟩ src 0x00000000#32 h (.inl rfl) hacc (ix1 p) = ∑ q : Fin N, src (ix2 p q) :=
  Ideal.multiReduction_add_rows src _ h (.inl rfl) hacc p

/-- The vector exponential at an index. -/
theorem exp_apply_ideal {s : Shape} {φ : FTy} (a : FVec Ideal s φ) (i : s.Idx) : Idealize.ShloMosaic.exp a i = Ideal.exp (a i) := rfl

/-- A rank-1 vector recast as a column, at (p, q): the vector at p. -/
theorem shapeCast_col {α : Type} {M : Nat} (x : (⟨1, ![M]⟩ : Shape).Idx → α) (h : (⟨1, ![M]⟩ : Shape).ShapeCasts ⟨2, ![M, 1]⟩)
    (p : Fin M) (q : Fin 1) : shapeCast ⟨2, ![M, 1]⟩ x h (ix2 p q) = x (ix1 p) := by
  refine shapeCast_apply x h (ix2 p q) (ix1 p) ?_
  rw [Shape.rowMajor_val_one, Shape.rowMajor_val_two]
  show p.val = p.val * 1 + q.val
  omega

/-- A column broadcast along the rows, at (p, q): the column at p. -/
theorem broadcastTo_col {α : Type} {M N : Nat} (x : (⟨2, ![M, 1]⟩ : Shape).Idx → α) (h : (⟨2, ![M, 1]⟩ : Shape).Broadcasts ⟨2, ![M, N]⟩)
    (p : Fin M) (q : Fin N) : broadcastTo ⟨2, ![M, N]⟩ x h (ix2 p q) = x (ix2 p 0) := by
  refine broadcastTo_apply x h (ix2 p q) (ix2 p 0) fun a => ?_
  match a with
  | ⟨0, _⟩ =>
    show p.val = if M = 1 then 0 else p.val
    split
    · have := p.isLt; omega
    · rfl
  | ⟨1, _⟩ =>
    show (0 : Fin 1).val = if (1 : Nat) = 1 then 0 else q.val
    rw [if_pos rfl]; rfl

namespace Layer
/-- Two linear maps with the clamp `max · z` before each, on one row. -/
def net {a b c : Nat} (z : EReal) (y : Fin a → EReal) (W1 : Fin a → Fin b → EReal) (W2 : Fin b → Fin c → EReal) (q : Fin c) : EReal :=
  ∑ k : Fin b, max (∑ j : Fin a, max (y j) z * W1 j k) z * W2 k q
/-- The softmax of one row, with the maximum taken from `ninf`. -/
def smax {c : Nat} (ninf : EReal) (l : Fin c → EReal) (q : Fin c) : EReal :=
  Ideal.div (Ideal.exp (l q - max ninf (Finset.univ.fold max ninf l)))
    (∑ q' : Fin c, Ideal.exp (l q' - max ninf (Finset.univ.fold max ninf l)))
/-- Both depend on their arguments only through their values. -/
theorem net_congr {a b c : Nat} (z : EReal) {y y' : Fin a → EReal} {W1 W1' : Fin a → Fin b → EReal} {W2 W2' : Fin b → Fin c → EReal}
    (hy : ∀ j, y j = y' j) (h1 : ∀ j k, W1 j k = W1' j k) (h2 : ∀ k q, W2 k q = W2' k q) (q : Fin c) :
    net z y W1 W2 q = net z y' W1' W2' q := by
  rw [funext hy, funext fun j => funext (h1 j), funext fun k => funext (h2 k)]
theorem smax_net_congr {a b c : Nat} (z ninf : EReal) {y y' : Fin a → EReal} {W1 W1' : Fin a → Fin b → EReal} {W2 W2' : Fin b → Fin c → EReal}
    (hy : ∀ j, y j = y' j) (h1 : ∀ j k, W1 j k = W1' j k) (h2 : ∀ k q, W2 k q = W2' k q) (q : Fin c) :
    smax ninf (net z y W1 W2) q = smax ninf (net z y' W1' W2') q := by
  rw [funext hy, funext fun j => funext (h1 j), funext fun k => funext (h2 k)]
end Layer

/-- A sum over `T · K` consecutive indices is the sum over the `T` tiles of the sums over each tile's `K` indices. -/
theorem sum_tiles {α : Type*} [AddCommMonoid α] (T K : Nat) (f : Fin (T * K) → α) :
    ∑ j, f j = ∑ t : Fin T, ∑ k : Fin K, f (finProdFinEquiv (t, k)) :=
  (Fintype.sum_equiv finProdFinEquiv (fun x => f (finProdFinEquiv x)) f (fun _ => rfl)).symm.trans (Fintype.sum_prod_type _)

end Idealize.ShloMosaic

end
-- ==== Proof.KernelPayload.lean ====
/-
  The two payloads of the kernel's body read at an index, over the extended reals: the support matrix is the plain
  product x · w, and the output block is the plain product of the row panel with the scratch, plus the bias row
  (the one-row array read at its only row). Truncations to bf16 are the identity on the ideal values; the matrix
  unit's product into a zero accumulator is a plain sum.
-/
import proofs.«176293_g2000104153489032_pallasbulk_716_5_alg».proof.Proof.Gen.KernelIdeal.Skeleton
import proofs.«176293_g2000104153489032_pallasbulk_716_5_alg».proof.Proof.LibPlain
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.GcnValue

open Cert.KernelIdeal Cert.KernelIdeal.Gen

/-- The first product's dimension record is the plain [8192,256] × [256,256] one. -/
theorem dot1_eq : dot_S8192x256_S256x256_S8192x256_1_0_0_1_n_n = DotDims.plain 8192 256 256 := rfl

/-- The second product's dimension record is the plain [512,8192] × [8192,256] one. -/
theorem dot2_eq : dot_S512x8192_S8192x256_S512x256_1_0_0_1_n_n = DotDims.plain 512 8192 256 := rfl

/-- The support matrix at (k, q): row k of x against column q of w. -/
theorem pay1_apply (x : FVec Ideal S8192x256 .f32) (w : FVec Ideal S256x256 .f32) (k : Fin 8192) (q : Fin 256) :
    k0_pay1 (F := Ideal) x w (ix2 k q) = ∑ l : Fin 256, x (ix2 k l) * w (ix2 l q) := by
  unfold k0_pay1
  rw [shapeCast_self]
  refine (truncf_apply (φ := .f32) (ψ := .bf16) _ bitsLt_bf16_f32 (ix2 k q)).trans ?_
  rw [dot1_eq]
  exact Ideal.matmul_plain_zero_apply none (truncf .bf16 x bitsLt_bf16_f32) (truncf .bf16 w bitsLt_bf16_f32) k q

/-- The output block at (p, q): row p of the panel against column q of the scratch, plus the bias row at q. -/
theorem pay2_apply (a : FVec Ideal S512x8192 .f32) (s : FVec Ideal S8192x256 .bf16) (b : FVec Ideal S1x256 .f32)
    (p : Fin 512) (q : Fin 256) :
    k0_pay2 (F := Ideal) a s b (ix2 p q) = (∑ k : Fin 8192, a (ix2 p k) * s (ix2 k q)) + b (ix2 (0 : Fin 1) q) := by
  unfold k0_pay2
  rw [shapeCast_self]
  refine (addf_apply _ _ _).trans ?_
  rw [dot2_eq]
  refine congrArg₂ (· + ·) ?_ ?_
  · exact Ideal.matmul_plain_zero_apply none (truncf .bf16 a bitsLt_bf16_f32) s p q
  · exact broadcastTo_1b_ab_apply b broadcasts_S1x256_S512x256 p q

end Cert.KernelIdeal.GcnValue
end
-- ==== Proof.KernelLayer.lean ====
/-
  The kernel's two payloads as the layer's own terms, over the extended reals: once the blocks the body loads are
  identified, entry by entry, with the argument arrays, the matrix stored into the scratch is the layer's support
  matrix and the output block is the layer's result on the block's rows.
-/
import proofs.«176293_g2000104153489032_pallasbulk_716_5_alg».proof.Proof.KernelPayload
import proofs.«176293_g2000104153489032_pallasbulk_716_5_alg».proof.Proof.Spec

noncomputable section

open Idealize.ShloMosaic Idealize.ShloMosaic.ValueIdx

namespace Cert.KernelIdeal.GcnValue

open Cert.KernelIdeal Cert.KernelIdeal.Gen

/-- The stored matrix at (k, q) is the layer's support there, when the loaded blocks read x's row k and w's column q. -/
theorem pay1_support (xb : FVec Ideal S8192x256 .f32) (wb : FVec Ideal S256x256 .f32)
    (x : Gcn.Sx.Idx → EReal) (w : Gcn.Sw.Idx → EReal) (k : Fin 8192) (q : Fin 256)
    (hx : ∀ l : Fin 256, xb (ix2 k l) = x (ix2 k l)) (hw : ∀ l : Fin 256, wb (ix2 l q) = w (ix2 l q)) :
    k0_pay1 (F := Ideal) xb wb (ix2 k q) = Gcn.supportAt x w k q := by
  rw [pay1_apply]
  exact Finset.sum_congr rfl fun l _ => by rw [hx l, hw l]

/-- The output block at (p, q) is the layer's result at row r, when the panel's row p is the adjacency's row r, the
    scratch's column q is the support's, and the bias row reads the bias at q. -/
theorem pay2_layer (a : FVec Ideal S512x8192 .f32) (s : FVec Ideal S8192x256 .bf16) (b : FVec Ideal S1x256 .f32)
    (x : Gcn.Sx.Idx → EReal) (adj : Gcn.Sadj.Idx → EReal) (w : Gcn.Sw.Idx → EReal) (bias : Gcn.Sb.Idx → EReal)
    (p : Fin 512) (q : Fin 256) (r : Fin 8192)
    (ha : ∀ k : Fin 8192, a (ix2 p k) = adj (ix2 r k))
    (hs : ∀ k : Fin 8192, s (ix2 k q) = Gcn.supportAt x w k q)
    (hb : b (ix2 (0 : Fin 1) q) = bias (ix1 q)) :
    k0_pay2 (F := Ideal) a s b (ix2 p q) = Gcn.out x adj w bias (ix2 r q) := by
  rw [pay2_apply, hb]
  show _ = (∑ k : Fin 8192, adj (ix2 r k) * Gcn.supportAt x w k q) + bias (ix1 q)
  exact congrArg (· + bias (ix1 q)) (Finset.sum_congr rfl fun k _ => by rw [ha k, hs k])

end Cert.KernelIdeal.GcnValue
end
-- ==== Proof.KernelBlocks.lean ====
/-
  What the windows' blocks read of the arrays the region finds, entry by entry, for any float values: the first,
  second and fourth windows' blocks are the whole of x, w and the bias row at every grid point; the third window's
  block at point t is rows 512·t … 512·t + 511 of the adjacency; the bias row is the rank-one bias recast as one row;
  and the output window's block at point t sits at the same rows of the result.
-/
import proofs.«176293_g2000104153489032_pallasbulk_716_5_alg».proof.Defs
import proofs.«176293_g2000104153489032_pallasbulk_716_5_alg».proof.Proof.Gen.KernelIdeal.Frame
import Idealize.ShloMosaic.Lib.Pipeline.Value
import Idealize.ShloMosaic.Lib.ValueIdx
import Idealize.ShloMosaic.Lib.ValueLayout
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.GcnValue

open Cert.KernelIdeal Cert.KernelIdeal.Gen

variable {F : FTy → Type} [FloatOps F]
variable (m : (ℓ : Loc nD τ sig) → Buf (Elt F) ℓ)

/-- The printed index maps, decided over the grid: the windows over x, w and the bias row stay at block (0, 0); the
    adjacency's and the result's move down one block of rows per point. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The first window's block is x, at every point. -/
theorem blk0_apply (c : Dev nD) (t : Fin cfg0.N) (k : Fin 8192) (l : Fin 256) :
    (iblk m c 0 t : Vec F S8192x256 .f32) (ix2 k l) = m ((c : Thread nD τ).loc main_arg0) (ix2 k l) := by
  obtain ⟨e0, e1, -⟩ := idx_facts t
  unfold iblk
  rw [View.read_apply]
  show V m c main_arg0 _ = _
  rw [V_main_arg0]
  congr 1
  funext a
  apply Fin.ext
  match a with
  | ⟨0, _⟩ => show win0_0.index t (0 : Fin 2) * 8192 + 1 * k.val = k.val; rw [e0]; omega
  | ⟨1, _⟩ => show win0_0.index t (1 : Fin 2) * 256 + 1 * l.val = l.val; rw [e1]; omega

/-- The second window's block is w, at every point. -/
theorem blk1_apply (c : Dev nD) (t : Fin cfg0.N) (l : Fin 256) (q : Fin 256) :
    (iblk m c 1 t : Vec F S256x256 .f32) (ix2 l q) = m ((c : Thread nD τ).loc main_arg2) (ix2 l q) := by
  obtain ⟨-, -, e0, e1, -⟩ := idx_facts t
  unfold iblk
  rw [View.read_apply]
  show V m c main_arg2 _ = _
  rw [V_main_arg2]
  congr 1
  funext a
  apply Fin.ext
  match a with
  | ⟨0, _⟩ => show win0_1.index t (0 : Fin 2) * 256 + 1 * l.val = l.val; rw [e0]; omega
  | ⟨1, _⟩ => show win0_1.index t (1 : Fin 2) * 256 + 1 * q.val = q.val; rw [e1]; omega

/-- The third window's block at point t is the adjacency's rows from 512·t on. -/
theorem blk2_apply (c : Dev nD) (t : Fin cfg0.N) (p : Fin 512) (k : Fin 8192) (r : Fin 8192)
    (hr : r.val = 512 * t.val + p.val) :
    (iblk m c 2 t : Vec F S512x8192 .f32) (ix2 p k) = m ((c : Thread nD τ).loc main_arg1) (ix2 r k) := by
  obtain ⟨-, -, -, -, e0, e1, -⟩ := idx_facts t
  unfold iblk
  rw [View.read_apply]
  show V m c main_arg1 _ = _
  rw [V_main_arg1]
  congr 1
  funext a
  apply Fin.ext
  match a with
  | ⟨0, _⟩ => show win0_2.index t (0 : Fin 2) * 512 + 1 * p.val = r.val; rw [e0, hr]; omega
  | ⟨1, _⟩ => show win0_2.index t (1 : Fin 2) * 8192 + 1 * k.val = k.val; rw [e1]; omega

/-- The bias row the region finds: the rank-one bias recast as one row. -/
theorem V_row (c : Dev nD) :
    (V m c main_v0 : S1x256.Idx → Elt F .f32) = shapeCast S1x256 (m ((c : Thread nD τ).loc main_arg3)) shapeCasts_S256_S1x256 := by
  dsimp only [Gen.V, Gen.hostOps0]
  after_results
  rfl

/-- The fourth window's block is that row, at every point: at (0, q) it reads the bias at q. -/
theorem blk3_apply (c : Dev nD) (t : Fin cfg0.N) (q : Fin 256) :
    (iblk m c 3 t : Vec F S1x256 .f32) (ix2 (0 : Fin 1) q) = m ((c : Thread nD τ).loc main_arg3) (ix1 q) := by
  obtain ⟨-, -, -, -, -, -, e0, e1, -⟩ := idx_facts t
  unfold iblk
  rw [View.read_apply]
  show V m c main_v0 _ = _
  rw [V_row]
  refine Eq.trans ?_ (shapeCast_a_1a_apply (m ((c : Thread nD τ).loc main_arg3)) shapeCasts_S256_S1x256 (0 : Fin 1) q)
  congr 1
  funext a
  apply Fin.ext
  match a with
  | ⟨0, _⟩ => show win0_3.index t (0 : Fin 2) * 1 + 1 * (0 : Fin 1).val = (0 : Fin 1).val; rw [e0]; rfl
  | ⟨1, _⟩ => show win0_3.index t (1 : Fin 2) * 256 + 1 * q.val = q.val; rw [e1]; omega

/-- The output window's block at point t sits at the result's rows from 512·t on. -/
theorem emb4 (t : Fin cfg0.N) (p : Fin 512) (q : Fin 256) (r : Fin 8192) (hr : r.val = 512 * t.val + p.val) :
    ((cfg0.win 4).blk t).view.emb (ix2 p q : S512x256.Idx) = (ix2 r q : S8192x256.Idx) := by
  obtain ⟨-, -, -, -, -, -, -, -, e0, e1⟩ := idx_facts t
  funext a
  apply Fin.ext
  match a with
  | ⟨0, _⟩ => show win0_4.index t (0 : Fin 2) * 512 + 1 * p.val = r.val; rw [e0, hr]; omega
  | ⟨1, _⟩ => show win0_4.index t (1 : Fin 2) * 256 + 1 * q.val = q.val; rw [e1]; omega

/-- An index of the result is in point t's block iff each coordinate is in the block's range on its axis. -/
theorem mem_blk4 (t : Fin cfg0.N) (i : S8192x256.Idx) :
    i ∈ ((cfg0.win 4).blk t).view.set ↔ ∀ a : Fin 2, win0_4.index t a * S512x256.size a ≤ (i a).val
      ∧ (i a).val < win0_4.index t a * S512x256.size a + S512x256.size a := by
  show i ∈ ((View.whole main_v1).slice (win0_4.rect t)).set ↔ _
  rw [View.set_slice_whole, Rect.mem_set_unit]
  exact Iff.rfl

/-- Every index of the result is in some point's block: row r is in the block of point r / 512. -/
theorem cover4 (i : S8192x256.Idx) :
    ∃ t : Fin cfg0.N, (cfg0.win 4).flush t = true ∧ i ∈ ((cfg0.win 4).blk t).view.set := by
  have hi0 : (i 0).val < 8192 := (i 0).isLt
  have hi1 : (i 1).val < 256 := (i 1).isLt
  have hN : cfg0.N = 16 := N_0
  refine ⟨⟨(i 0).val / 512, by rw [hN]; omega⟩, flush0_4 _, ?_⟩
  rw [mem_blk4]
  obtain ⟨-, -, -, -, -, -, -, -, e0, e1⟩ := idx_facts ⟨(i 0).val / 512, by rw [hN]; omega⟩
  intro a
  match a with
  | ⟨0, _⟩ =>
    show win0_4.index _ (0 : Fin 2) * 512 ≤ (i 0).val ∧ (i 0).val < win0_4.index _ (0 : Fin 2) * 512 + 512
    rw [e0]; dsimp only; omega
  | ⟨1, _⟩ =>
    show win0_4.index _ (1 : Fin 2) * 256 ≤ (i 1).val ∧ (i 1).val < win0_4.index _ (1 : Fin 2) * 256 + 256
    rw [e1]; omega

end Cert.KernelIdeal.GcnValue
end
-- ==== Proof.KernelRun.lean ====
/-
  The kernel's run, read over the extended reals: after it the result array holds the layer
      out(p, q) = (Σ_k adj(p, k) · support(k, q)) + bias(q),   support(k, q) = Σ_l x(k, l) · w(l, q),
  of the argument arrays as launched, and the four arguments are unchanged. Every grid point writes back its output
  block, which is the layer's result on the block's 512 rows (the scratch holding the support matrix from the first
  point on); the sixteen blocks cover the result array.
-/
import proofs.«176293_g2000104153489032_pallasbulk_716_5_alg».proof.Defs
import proofs.«176293_g2000104153489032_pallasbulk_716_5_alg».proof.Proof.Gen.KernelIdeal.Frame
import proofs.«176293_g2000104153489032_pallasbulk_716_5_alg».proof.Proof.Gen.KernelIdeal.Value
import proofs.«176293_g2000104153489032_pallasbulk_716_5_alg».proof.Proof.Spec
import proofs.«176293_g2000104153489032_pallasbulk_716_5_alg».proof.Proof.KernelScratch
import proofs.«176293_g2000104153489032_pallasbulk_716_5_alg».proof.Proof.KernelLayer
import proofs.«176293_g2000104153489032_pallasbulk_716_5_alg».proof.Proof.KernelBlocks
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.GcnValue

open Cert.KernelIdeal Cert.KernelIdeal.Gen

variable (m : (ℓ : Loc nD τ sig) → Buf (Elt Ideal) ℓ) (ρ : Dev nD → PrngReg)

/-- The layer of the argument arrays as launched on core c. -/
abbrev layer (c : Dev nD) : Gcn.Sx.Idx → EReal :=
  Gcn.out (m ((c : Thread nD τ).loc main_arg0)) (m ((c : Thread nD τ).loc main_arg1))
    (m ((c : Thread nD τ).loc main_arg2)) (m ((c : Thread nD τ).loc main_arg3))

/-- The scratch holds the layer's support matrix. -/
theorem supp_apply (c : Dev nD) (k : Fin 8192) (q : Fin 256) :
    supp m c (ix2 k q)
      = Gcn.supportAt (m ((c : Thread nD τ).loc main_arg0)) (m ((c : Thread nD τ).loc main_arg2)) k q := by
  unfold supp
  exact pay1_support (iblk m c 0 ⟨0, N_pos⟩) (iblk m c 1 ⟨0, N_pos⟩)
    (m ((c : Thread nD τ).loc main_arg0)) (m ((c : Thread nD τ).loc main_arg2)) k q
    (fun l => blk0_apply m c ⟨0, N_pos⟩ k l) (fun l => blk1_apply m c ⟨0, N_pos⟩ l q)

/-- What point t writes back is the layer read through the point's block of the result array. -/
theorem flushed_eq (c : Dev nD) (t : Fin cfg0.N) (hf : (cfg0.win 4).flush t = true) :
    (dats m 0 c).flushed 4 t = ((cfg0.win 4).blk t).view.read (Elt Ideal) (layer m c) := by
  have hN : cfg0.N = 16 := N_0
  have ht : t.val < 16 := lt_of_lt_of_eq t.isLt hN
  rw [Value.flushed4, out_eq]
  show (k0_pay2 (iblk m c 2 t) (supp m c) (iblk m c 3 t) : S512x256.Idx → EReal)
    = fun y : S512x256.Idx => layer m c (((cfg0.win 4).blk t).view.emb y)
  funext y
  obtain ⟨p, q, rfl⟩ : ∃ (p : Fin 512) (q : Fin 256), y = ix2 p q := ⟨y 0, y 1, eq_ix2 y⟩
  rw [emb4 t p q ⟨512 * t.val + p.val, by have := p.isLt; omega⟩ rfl]
  exact pay2_layer (iblk m c 2 t) (supp m c) (iblk m c 3 t)
    (m ((c : Thread nD τ).loc main_arg0)) (m ((c : Thread nD τ).loc main_arg1))
    (m ((c : Thread nD τ).loc main_arg2)) (m ((c : Thread nD τ).loc main_arg3)) p q
    ⟨512 * t.val + p.val, by have := p.isLt; omega⟩
    (fun k => blk2_apply m c t p k ⟨512 * t.val + p.val, by have := p.isLt; omega⟩ rfl)
    (fun k => supp_apply m c k q) (blk3_apply m c t q)

/-- So the result array ends holding the layer: the sixteen blocks cover it. -/
theorem final (c : Dev nD) : (dats m 0 c).arrAt 4 cfg0.N = layer m c :=
  (dats m 0 c).arrAt_eq_of_cover 4 (layer m c) (flushed_eq m c) cover4

/-- The run: the result array at the layer of the arguments as launched, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v1)
        = Gcn.out (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.GcnValue
end
-- ==== Proof.RefRun.lean ====
/-
  The reference's run with its result array named. The reference is two pipelined regions among stretches of host
  operations; after the last region every unscoped buffer holds the last boundary's contents, and there the result
  buffer is what the second region's write-backs leave: the fold of its flushed blocks over the region-entry contents.
  The four argument arrays end as launched.
-/
import proofs.«176293_g2000104153489032_pallasbulk_716_5_alg».proof.Defs
import proofs.«176293_g2000104153489032_pallasbulk_716_5_alg».proof.Proof.Gen.ReferenceIdeal.Frame

set_option maxRecDepth 16384

noncomputable section

namespace Cert.ReferenceIdeal.GcnRun

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the reference terminates; the result array ends at the second region's folded
    write-backs over that region's entry contents, and the arguments end unchanged. -/
theorem run_blocks : θ_run defs (onTc (τ := τ) (main (F := F))) ⟨m, fun _ => 0, ρ⟩ (fun r => ∀ c : Dev nD,
      r.2.mem ((c.tc : Thread nD τ).loc main_v5) = (dat1 (V8 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨(h c _ (mem_uc main_v5 (by decide))).trans (W9_arr m ρ c 3),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c)⟩)

end Cert.ReferenceIdeal.GcnRun

end
-- ==== Proof.LibPad.lean ====
/-
  General facts about two host layout operations, for any element type: a pad whose low and interior widths are zero,
  onto the operand's own shape, is the operand (so is then its high width); a vector of n entries recast as one row
  [1, n] holds entry q at (0, q). And the one- and two-axis offset vectors of zeros are the zero function.
-/
import Idealize.ShloMosaic.Lib.KernelVsHost
import Idealize.ShloMosaic.Lib.ValueIdx
import Idealize.ShloMosaic.Lib.Pipeline.Value

noncomputable section

namespace Idealize.ShloMosaic

/-- A pad with no low padding and no interior padding, onto the operand's own shape, is the operand. -/
theorem pad_none {s : Shape} {α : Type} {lo hi interior : Fin s.rank → Nat} (hlo : lo = fun _ => 0)
    (hint : interior = fun _ => 0) (x : s.Idx → α) {u : Shape} (v : u.Idx → α) (h : s.Pads lo hi interior s)
    (hu : 0 < u.numel) : pad s lo hi interior x v h hu = x := by
  subst hlo hint
  funext j
  refine pad_apply_of_inside _ hi _ x v h hu j j fun a => ?_
  show (j (a.cast h.1)).val = 0 + (j a).val * (0 + 1)
  simp

theorem zero_offsets1 : (![0] : Fin 1 → Nat) = fun _ => 0 := by
  funext a; fin_cases a; rfl

theorem zero_offsets2' : (![0, 0] : Fin 2 → Nat) = fun _ => 0 := by
  funext a; fin_cases a <;> rfl

/-- A vector of n entries recast as one row [1, n], at (0, q): entry q. -/
theorem shapeCast_row {α : Type} {n : Nat} (x : (⟨1, ![n]⟩ : Shape).Idx → α) (h : (⟨1, ![n]⟩ : Shape).ShapeCasts ⟨2, ![1, n]⟩)
    (q : Fin n) : shapeCast ⟨2, ![1, n]⟩ x h (ValueIdx.ix2 (0 : Fin 1) q) = x (ValueIdx.ix1 q) := by
  refine shapeCast_apply x h (ValueIdx.ix2 0 q) (ValueIdx.ix1 q) ?_
  rw [Shape.rowMajor_val_one, Shape.rowMajor_val_two]
  show q.val = (0 : Fin 1).val * n + q.val
  simp

end Idealize.ShloMosaic

end
-- ==== Proof.RefHost.lean ====
/-
  The reference's host operations around its two regions. Each argument passes through a `pad` whose low, high and
  interior widths are all zero — the identity on the array — and the bias is then recast from [256] to one row
  [1, 256]. So the first region is entered with x and w themselves, and the second with adj itself, with the first
  region's result array, and with the bias as a row: row entry (0, q) is bias(q).
-/
import proofs.«176293_g2000104153489032_pallasbulk_716_5_alg».proof.Defs
import proofs.«176293_g2000104153489032_pallasbulk_716_5_alg».proof.Proof.Gen.ReferenceIdeal.Frame
import proofs.«176293_g2000104153489032_pallasbulk_716_5_alg».proof.Proof.LibPad
import Idealize.ShloMosaic.Lib.StableHlo.Run
import Idealize.ShloMosaic.Lib.KernelVsHost
import Idealize.ShloMosaic.Lib.ValueIdx
import Idealize.ShloMosaic.Lib.Pipeline.Value
import Idealize.ShloMosaic.Lib.Tactic

noncomputable section

namespace Cert.ReferenceIdeal.GcnHost

open Cert.ReferenceIdeal Cert.ReferenceIdeal.Gen
open Idealize.ShloMosaic Idealize.ShloMosaic.TcCoe Idealize.SL.Sem Idealize.ShloMosaic.Tactic
open Idealize.ShloMosaic.Pipeline (Dat)

variable {F : FTy → Type} [FloatOps F]
variable (m : (ℓ : Loc nD τ sig) → Buf (Elt F) ℓ) (ρ : Dev nD → PrngReg)

/-- The first region is entered with x in its first window's array. -/
theorem V4_x (c : Dev nD) : V4 m ρ c main_v0 = m ((c : Thread nD τ).loc main_arg0) := by
  show StableHlo.after hostOps0_3 (W3 m ρ c) (Proc.devRef .tc main_v0) = _
  after_results
  show pad S8192x256 ![0, 0] ![0, 0] ![0, 0] (m ((c : Thread nD τ).loc main_arg0)) _ pads_S8192x256_S8192x256_000_000 h_S_ = _
  exact pad_none (hi := ![0, 0]) zero_offsets2' zero_offsets2' _ _ _ _

/-- … and with w in its second window's array. -/
theorem V4_w (c : Dev nD) : V4 m ρ c main_v1 = m ((c : Thread nD τ).loc main_arg2) := by
  show StableHlo.after hostOps0_3 (W3 m ρ c) (Proc.devRef .tc main_v1) = _
  after_results
  show pad S256x256 ![0, 0] ![0, 0] ![0, 0] (m ((c : Thread nD τ).loc main_arg2)) _ pads_S256x256_S256x256_000_000 h_S_ = _
  exact pad_none (hi := ![0, 0]) zero_offsets2' zero_offsets2' _ _ _ _

/-- The second region is entered with adj as launched: no host operation and no region writes it. -/
theorem V8_adj (c : Dev nD) : V8 m ρ c main_arg1 = m ((c : Thread nD τ).loc main_arg1) :=
  ((W9_arr m ρ c 0).trans (((dat1 (V8 m ρ) c).arrAt_in 0 rfl _).trans (A_eq1 (V8 m ρ) c 0))).symm.trans (W9_main_arg1 m ρ c)

/-- … with the first region's result array as that region left it, -/
theorem V8_support (c : Dev nD) : V8 m ρ c main_v2 = (dat0 (V4 m ρ) c).arrAt 2 cfg0.N := by
  show StableHlo.after hostOps1_2 (W7 m ρ c) (Proc.devRef .tc main_v2) = _
  after_results
  exact W5_arr m ρ c 2

/-- The bias reaches the second region's entry unchanged in its own buffer. -/
theorem W5_bias (c : Dev nD) : W5 m ρ c (Proc.devRef .tc main_arg3) = m ((c : Thread nD τ).loc main_arg3) := by
  rw [W5_of_ne m ρ c main_arg3 (by decide)]
  show StableHlo.after hostOps0_3 (W3 m ρ c) (Proc.devRef .tc main_arg3) = _
  after_results

/-- … and with the bias as one row: the row's entry (0, q) is bias(q). -/
theorem V8_bias (c : Dev nD) (q : Fin 256) :
    V8 m ρ c main_v4 (ValueIdx.ix2 (0 : Fin 1) q) = m ((c : Thread nD τ).loc main_arg3) (ValueIdx.ix1 q) := by
  have e : V8 m ρ c main_v4 = shapeCast S1x256 (m ((c : Thread nD τ).loc main_arg3)) shapeCasts_S256_S1x256 := by
    show StableHlo.after hostOps1_2 (W7 m ρ c) (Proc.devRef .tc main_v4) = _
    after_results
    show shapeCast S1x256 (pad S256 ![0] ![0] ![0] (W5 m ρ c (Proc.devRef .tc main_arg3)) _ pads_S256_S256_000 h_S_)
      shapeCasts_S256_S1x256 = _
    exact congrArg (fun y => shapeCast S1x256 y shapeCasts_S256_S1x256)
      ((pad_none (s := S256) (lo := ![0]) (hi := ![0]) (interior := ![0]) zero_offsets1 zero_offsets1 _ _
        pads_S256_S256_000 h_S_).trans (W5_bias m ρ c))
  rw [e]
  exact shapeCast_row _ _ q

end Cert.ReferenceIdeal.GcnHost

end
-- ==== Proof.LibCover.lean ====
/-
  Two general facts about reading a buffer after stores, when the LAST store wrote the whole buffer: a load through any
  rectangle then reads that store's payload through the rectangle, whatever was stored before.
-/
import Idealize.ShloMosaic.Lib.Pipeline.FrameBody
import Idealize.ShloMosaic.Lib.Pipeline.Value

namespace Idealize.ShloMosaic.View

variable {Val : EltTy → Type} {S : Shape} {e : EltTy}

/-- After a last store of `w` through the whole-shape rectangle at zero offsets, a covered load through a rectangle
    `r` reads `w` at `r`'s indices. -/
theorem readCov_cons_whole_ld [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (Piece Val S e)) (r : Rect S) :
    v.readCov ((⟨Rect.unit off S.size inb, w⟩ : Piece Val S e) :: L) r.toLoadRect = View.ld w r := by
  subst h
  rw [readCov_eq_canon_ld _ _ _ (fun y => ⟨_, List.mem_cons_self, by
    show y ∈ (Rect.whole S).set; rw [Rect.set_whole]; exact Finset.mem_univ y⟩), canon_cons_unit_zero rfl]

end Idealize.ShloMosaic.View
-- ==== Proof.RefRegion0.lean ====
/-
  The reference's first region: sixteen points, each of which computes one block of 512 rows of the support matrix
  x · w in a zeroed accumulator and stores it to its output block. Over the extended reals the stored block is
  0 + (0 + Σ_l x(k, l) · w(l, q)), so the region's result array is the support matrix.
-/
import proofs.«176293_g2000104153489032_pallasbulk_716_5_alg».proof.Defs
import proofs.«176293_g2000104153489032_pallasbulk_716_5_alg».proof.Proof.Gen.ReferenceIdeal.Frame
import proofs.«176293_g2000104153489032_pallasbulk_716_5_alg».proof.Proof.Spec
import proofs.«176293_g2000104153489032_pallasbulk_716_5_alg».proof.Proof.LibCover
import proofs.«176293_g2000104153489032_pallasbulk_716_5_alg».proof.Proof.LibPlain
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.ReferenceIdeal.GcnR0

open Cert.ReferenceIdeal Cert.ReferenceIdeal.Gen
open Idealize.ShloMosaic Idealize.ShloMosaic.TcCoe Idealize.SL.Sem Idealize.ShloMosaic.Tactic Idealize.ShloMosaic.ValueIdx
open Idealize.ShloMosaic.Pipeline (Dat)

variable {F : FTy → Type} [FloatOps F]

theorem hz : (![0, 0] : Fin 2 → Nat) = fun _ => 0 := funext fun a => by fin_cases a <;> rfl

/-- What one point leaves in the output block: the accumulator — zeroed, then increased by the block's product —
    narrowed to the output's format. -/
theorem out_eq (c : Dev nD) (i : grid0.Coords) (a3 : Memref sig .tc .vmem S512x256 .f32) (h3 : a3.IsWhole)
    (a4 : Memref sig .tc .vmem S256x256 .f32) (h4 : a4.IsWhole) (a5 : Memref sig .tc .vmem S512x256 .bf16) (h5 : a5.IsWhole)
    (a6 : Memref sig .tc .vmem S512x256 .f32) (h6 : a6.IsWhole) (hc0 : cond0_0 i) (hc1 : cond0_1 i)
    (x0 : Vec F S512x256 .f32) (x1 : Vec F S256x256 .f32) :
    out0_A_2 c i a3 h3 a4 h4 a5 h5 a6 h6 hc0 hc1 x0 x1 = k0_pay3 (k0_pay2 k0_pay1 x0 x1) := by
  unfold out0_A_2
  rw [View.read_writes_eq_canon _ _ _ (cover0_A_2 c i a3 h3 a4 h4 a5 h5 a6 h6 hc0 hc1 x0 x1)]
  unfold kernelRun0_A
  dsimp only
  sl_unfold_words
  rw [View.canon_unit_zero hz]
  rw [View.readCov_cons_whole_ld _ hz, View.ld_unit_zero hz, View.readCov_unit_zero _ hz]
  simp only [View.readAt_eq_ld, h3.read_unread, h4.read_unread, View.ld_unit_zero (S := S512x256) hz,
    View.ld_unit_zero (S := S256x256) hz]

/-- The stored block at (p, q), over the extended reals: row p of the x block against column q of w. -/
theorem pay_apply (x0 : Vec Ideal S512x256 .f32) (x1 : Vec Ideal S256x256 .f32) (p : Fin 512) (q : Fin 256) :
    (k0_pay3 (k0_pay2 k0_pay1 x0 x1) : FVec Ideal S512x256 .bf16) (ix2 p q) = ∑ l : Fin 256, x0 (ix2 p l) * x1 (ix2 l q) := by
  unfold k0_pay3 k0_pay2 k0_pay1
  simp only [truncf_apply, shapeCast_self, addf_apply, broadcast_apply]
  show Ideal.ofBits .f32 0x00000000#32 + _ = _
  rw [Ideal.ofBits_zero_f32, zero_add]
  exact (Ideal.matmul_plain_zero_apply none (truncf FTy.bf16 x0 bitsLt_bf16_f32) (truncf FTy.bf16 x1 bitsLt_bf16_f32) p q).trans
    (Finset.sum_congr rfl fun l _ => rfl)

/-- One point's stored block over blocks that are rows 512·t … of x and the whole of w: the matching rows of the
    support matrix. -/
theorem block_eq (x : Gcn.Sx.Idx → EReal) (w : Gcn.Sw.Idx → EReal) (tv : Nat) (ht : tv < 16)
    (x0 : Vec Ideal S512x256 .f32) (x1 : Vec Ideal S256x256 .f32)
    (hx0 : ∀ (p : Fin 512) (l : Fin 256), x0 (ix2 p l) = x (ix2 (⟨512 * tv + p.val, by have := p.isLt; omega⟩ : Fin 8192) l))
    (hx1 : ∀ (l : Fin 256) (q : Fin 256), x1 (ix2 l q) = w (ix2 l q)) (p : Fin 512) (q : Fin 256) :
    (k0_pay3 (k0_pay2 k0_pay1 x0 x1) : FVec Ideal S512x256 .bf16) (ix2 p q)
      = Gcn.support x w (ix2 (⟨512 * tv + p.val, by have := p.isLt; omega⟩ : Fin 8192) q) := by
  rw [pay_apply, Gcn.support_apply]
  exact Finset.sum_congr rfl fun l _ => by rw [hx0 p l, hx1 l q]

/-- The printed index maps over the sixteen points: the x block and the output block move with the point along the
    rows, w is read whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point t writes back is block t of the support matrix of the region's first two arrays. -/
theorem flushed_eq (c : Dev nD) (t : Fin cfg0.N) :
    (dat0 V c).flushed 2 t = ((cfg0.win 2).blk t).view.read (Elt Ideal) (Gcn.support (V c main_v0) (V c main_v1)) := by
  show (cfg0.win 2).cut (grid0.coords t) ((dat0 V c).after 2 t) = _
  rw [after0_2]
  unfold outsAt0
  rw [out_eq]
  obtain ⟨e0, e1, e2, e3, e4, e5⟩ := idx_facts t
  have hN : t.val < 16 := lt_of_lt_of_eq t.isLt (show cfg0.N = 16 from N_0)
  funext j
  obtain ⟨p, q, rfl⟩ : ∃ (p : Fin 512) (q : Fin 256), j = ix2 p q := ⟨j 0, j 1, eq_ix2 j⟩
  have hemb : ((cfg0.win 2).blk t).view.emb (ix2 p q) = ix2 (⟨512 * t.val + p.val, by have := p.isLt; omega⟩ : Fin 8192) q := by
    funext a; apply Fin.ext
    match a with
    | ⟨0, _⟩ => show win0_2.index t (0 : Fin 2) * 512 + 1 * p.val = 512 * t.val + p.val; rw [e4]; omega
    | ⟨1, _⟩ => show win0_2.index t (1 : Fin 2) * 256 + 1 * q.val = q.val; rw [e5]; omega
  show (k0_pay3 (k0_pay2 k0_pay1 (iblk0 V c 0 t) (iblk0 V c 1 t)) : FVec Ideal S512x256 .bf16) (ix2 p q)
    = Gcn.support (V c main_v0) (V c main_v1) (((cfg0.win 2).blk t).view.emb (ix2 p q))
  rw [hemb]
  refine block_eq (V c main_v0) (V c main_v1) t.val hN (iblk0 V c 0 t) (iblk0 V c 1 t) (fun p l => ?_) (fun l q => ?_) p q
  · show V c main_v0 (((cfg0.win 0).blk t).view.emb (ix2 p l)) = V c main_v0 _
    refine congrArg (V c main_v0) (funext fun a => Fin.ext ?_)
    match a with
    | ⟨0, _⟩ => show win0_0.index t (0 : Fin 2) * 512 + 1 * p.val = 512 * t.val + p.val; rw [e0]; omega
    | ⟨1, _⟩ => show win0_0.index t (1 : Fin 2) * 256 + 1 * l.val = l.val; rw [e1]; omega
  · show V c main_v1 (((cfg0.win 1).blk t).view.emb (ix2 l q)) = V c main_v1 _
    refine congrArg (V c main_v1) (funext fun a => Fin.ext ?_)
    match a with
    | ⟨0, _⟩ => show win0_1.index t (0 : Fin 2) * 256 + 1 * l.val = l.val; rw [e2]; omega
    | ⟨1, _⟩ => show win0_1.index t (1 : Fin 2) * 256 + 1 * q.val = q.val; rw [e3]; omega

/-- An index of the result array is in point t's block iff each coordinate is in the block's range on its axis. -/
theorem mem_blk (t : Fin cfg0.N) (i : S8192x256.Idx) :
    i ∈ ((cfg0.win 2).blk t).view.set ↔ ∀ a : Fin 2, win0_2.index t a * S512x256.size a ≤ (i a).val
      ∧ (i a).val < win0_2.index t a * S512x256.size a + S512x256.size a := by
  show i ∈ ((View.whole main_v2).slice (win0_2.rect t)).set ↔ _
  rw [View.set_slice_whole, Rect.mem_set_unit]
  exact Iff.rfl

/-- The region's result array is the support matrix of its first two arrays: row r is written by point r / 512. -/
theorem final (c : Dev nD) : (dat0 V c).arrAt 2 cfg0.N = Gcn.support (V c main_v0) (V c main_v1) :=
  (dat0 V c).arrAt_eq_of_cover 2 _ (fun t _ => flushed_eq V c t) fun i => by
    have hi0 : (i 0).val < 8192 := (i 0).isLt
    have hi1 : (i 1).val < 256 := (i 1).isLt
    let t : Fin cfg0.N := ⟨(i 0).val / 512, by rw [show cfg0.N = 16 from N_0]; omega⟩
    obtain ⟨e0, e1, e2, e3, e4, e5⟩ := idx_facts t
    have ht : t.val = (i 0).val / 512 := rfl
    refine ⟨t, flush0_2 t, ?_⟩
    rw [mem_blk]
    intro a
    match a with
    | ⟨0, _⟩ => show win0_2.index t (0 : Fin 2) * 512 ≤ (i 0).val ∧ (i 0).val < win0_2.index t (0 : Fin 2) * 512 + 512; rw [e4, ht]; omega
    | ⟨1, _⟩ => show win0_2.index t (1 : Fin 2) * 256 ≤ (i 1).val ∧ (i 1).val < win0_2.index t (1 : Fin 2) * 256 + 256; rw [e5]; omega

end Cert.ReferenceIdeal.GcnR0

end
-- ==== Proof.RefRegion1Pieces.lean ====
/-
  What the body of the second call leaves in the output block's buffer, in each of its three cases, as the body's
  named payloads of the blocks it loads.
-/
import proofs.«176293_g2000104153489032_pallasbulk_716_5_alg».proof.Defs
import proofs.«176293_g2000104153489032_pallasbulk_716_5_alg».proof.Proof.Gen.ReferenceIdeal.Frame
import Idealize.ShloMosaic.Lib.Pipeline.Value
import Idealize.ShloMosaic.Lib.Tactic

noncomputable section

open Idealize.ShloMosaic Idealize.ShloMosaic.TcCoe Idealize.SL.Sem

namespace Cert.ReferenceIdeal.GcnR1

open Cert.ReferenceIdeal Cert.ReferenceIdeal.Gen

variable {F : FTy → Type} [FloatOps F]

/-- The offsets of a load or store of a whole two-axis buffer. -/
theorem hz : (![0, 0] : Fin 2 → Nat) = fun _ => 0 := funext fun a => by fin_cases a <;> rfl

/-- At a point that is neither the first nor the last of its row of tiles, the body leaves in the output's buffer,
    which held `xo`, the one store's payload: `xo` plus the product of the two input blocks. -/
theorem out_B (c : Dev nD) (i : grid1.Coords) (a3 : Memref sig .tc .vmem S1024x1024 .f32) (h3 : a3.IsWhole)
    (a4 : Memref sig .tc .vmem S1024x256 .bf16) (h4 : a4.IsWhole) (a5 : Memref sig .tc .vmem S1x256 .f32) (h5 : a5.IsWhole)
    (a6 : Memref sig .tc .vmem S1024x256 .f32) (h6 : a6.IsWhole) (hc0 : ¬cond1_0 i) (hc1 : ¬cond1_1 i)
    (x0 : Vec F S1024x1024 .f32) (x1 : Vec F S1024x256 .bf16) (x2 : Vec F S1x256 .f32) (xo : Vec F S1024x256 .f32) :
    out1_B_3 c i a3 h3 a4 h4 a5 h5 a6 h6 hc0 hc1 x0 x1 x2 xo = k1_pay2 x0 xo x1 := by
  unfold out1_B_3
  rw [View.read_writes_eq_canon _ _ _ (cover1_B_3 c i a3 h3 a4 h4 a5 h5 a6 h6 hc0 hc1 x0 x1 x2 xo)]
  unfold kernelRun1_B
  dsimp only
  rw [View.canon_unit_zero hz]
  simp only [View.readAt_eq_ld, h3.read_unread, h4.read_unread, h6.read_unread, View.ld_unit_zero (S := S1024x1024) hz,
    View.ld_unit_zero (S := S1024x256) hz]

/-- At the first point of a row of tiles the body stores the zero block, loads it back, and leaves the zero block
    plus the product of the two input blocks. -/
theorem out_A (c : Dev nD) (i : grid1.Coords) (a3 : Memref sig .tc .vmem S1024x1024 .f32) (h3 : a3.IsWhole)
    (a4 : Memref sig .tc .vmem S1024x256 .bf16) (h4 : a4.IsWhole) (a5 : Memref sig .tc .vmem S1x256 .f32) (h5 : a5.IsWhole)
    (a6 : Memref sig .tc .vmem S1024x256 .f32) (h6 : a6.IsWhole) (hc0 : cond1_0 i) (hc1 : ¬cond1_1 i)
    (x0 : Vec F S1024x1024 .f32) (x1 : Vec F S1024x256 .bf16) (x2 : Vec F S1x256 .f32) :
    out1_A_3 c i a3 h3 a4 h4 a5 h5 a6 h6 hc0 hc1 x0 x1 x2 = k1_pay2 x0 k1_pay1 x1 := by
  unfold out1_A_3
  rw [View.read_writes_eq_canon _ _ _ (cover1_A_3 c i a3 h3 a4 h4 a5 h5 a6 h6 hc0 hc1 x0 x1 x2)]
  unfold kernelRun1_A
  dsimp only
  sl_unfold_words
  rw [View.canon_cons_unit_zero (S := S1024x256) hz, View.readCov_unit_zero (S := S1024x256) _ hz]
  simp only [View.readAt_eq_ld, h3.read_unread, h4.read_unread, View.ld_unit_zero (S := S1024x1024) hz,
    View.ld_unit_zero (S := S1024x256) hz]

/-- At the last point of a row of tiles the body stores `xo` plus the product of the two input blocks, loads that
    back, and leaves it with the bias row added to every row. -/
theorem out_C (c : Dev nD) (i : grid1.Coords) (a3 : Memref sig .tc .vmem S1024x1024 .f32) (h3 : a3.IsWhole)
    (a4 : Memref sig .tc .vmem S1024x256 .bf16) (h4 : a4.IsWhole) (a5 : Memref sig .tc .vmem S1x256 .f32) (h5 : a5.IsWhole)
    (a6 : Memref sig .tc .vmem S1024x256 .f32) (h6 : a6.IsWhole) (hc0 : ¬cond1_0 i) (hc1 : cond1_1 i)
    (x0 : Vec F S1024x1024 .f32) (x1 : Vec F S1024x256 .bf16) (x2 : Vec F S1x256 .f32) (xo : Vec F S1024x256 .f32) :
    out1_C_3 c i a3 h3 a4 h4 a5 h5 a6 h6 hc0 hc1 x0 x1 x2 xo = k1_pay3 (k1_pay2 x0 xo x1) x2 := by
  unfold out1_C_3
  rw [View.read_writes_eq_canon _ _ _ (cover1_C_3 c i a3 h3 a4 h4 a5 h5 a6 h6 hc0 hc1 x0 x1 x2 xo)]
  unfold kernelRun1_C
  dsimp only
  sl_unfold_words
  rw [View.canon_cons_unit_zero (S := S1024x256) hz, View.readCov_unit_zero (S := S1024x256) _ hz]
  simp only [View.readAt_eq_ld, h3.read_unread, h4.read_unread, h5.read_unread, h6.read_unread,
    View.ld_unit_zero (S := S1024x1024) hz, View.ld_unit_zero (S := S1024x256) hz, View.ld_unit_zero (S := S1x256) hz]

end Cert.ReferenceIdeal.GcnR1

end
-- ==== Proof.RefRegion1Payload.lean ====
/-
  The three payloads of the second call's body, read at an index over the extended reals: the zero block, a block
  plus the product of two blocks, a block plus one row added to each of its rows.
-/
import proofs.«176293_g2000104153489032_pallasbulk_716_5_alg».proof.Proof.Gen.ReferenceIdeal.Skeleton
import proofs.«176293_g2000104153489032_pallasbulk_716_5_alg».proof.Proof.LibPlain
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem

namespace Cert.ReferenceIdeal.GcnR1

open Cert.ReferenceIdeal Cert.ReferenceIdeal.Gen

open Idealize.ShloMosaic.ValueIdx

/-- The zero block is zero everywhere. -/
theorem pay1_apply (p : Fin 1024) (q : Fin 256) : (k1_pay1 (F := Ideal)) (ix2 p q) = 0 :=
  Ideal.ofBits_zero_f32

/-- The printed contraction is the plain product of a [1024, 1024] by a [1024, 256] array. -/
theorem dot_eq_plain : dot_S1024x1024_S1024x256_S1024x256_1_0_0_1_n_n = DotDims.plain 1024 1024 256 := rfl

/-- The accumulation step at (p, q): the block's entry plus the sum over the tile of the products. -/
theorem pay2_apply (a : FVec Ideal S1024x1024 .f32) (xo : FVec Ideal S1024x256 .f32) (s : FVec Ideal S1024x256 .bf16)
    (p : Fin 1024) (q : Fin 256) :
    k1_pay2 (F := Ideal) a xo s (ix2 p q) = xo (ix2 p q) + ∑ k' : Fin 1024, a (ix2 p k') * s (ix2 k' q) := by
  unfold k1_pay2
  simp only [shapeCast_self]
  refine (addf_apply _ _ _).trans ?_
  refine congrArg (xo (ix2 p q) + ·) ?_
  rw [dot_eq_plain]
  exact Ideal.matmul_plain_zero_apply (M := 1024) (K := 1024) (N := 256) none (truncf .bf16 a bitsLt_bf16_f32) s p q

/-- The last step at (p, q): the block's entry plus the row's entry at q. -/
theorem pay3_apply (y : FVec Ideal S1024x256 .f32) (b : FVec Ideal S1x256 .f32) (p : Fin 1024) (q : Fin 256) :
    k1_pay3 (F := Ideal) y b (ix2 p q) = y (ix2 p q) + b (ix2 0 q) := by
  unfold k1_pay3
  simp only [shapeCast_self]
  refine (addf_apply _ _ _).trans ?_
  exact congrArg (y (ix2 p q) + ·) (broadcastTo_1b_ab_apply (a := 1024) (b := 256) b broadcasts_S1x256_S1024x256 p q)

end Cert.ReferenceIdeal.GcnR1

end
-- ==== Proof.RefRegion1Acc.lean ====
/-
  The second call's accumulation, point by point: at the point (i, k) of the grid the output block's buffer holds, at
  (p, q), the sum over the first k + 1 tiles of the products adj(1024 i + p, ·) · support(·, q), and at k = 7 that sum
  with the bias row's entry added. By induction on the point.
-/
import proofs.«176293_g2000104153489032_pallasbulk_716_5_alg».proof.Defs
import proofs.«176293_g2000104153489032_pallasbulk_716_5_alg».proof.Proof.Gen.ReferenceIdeal.Frame
import proofs.«176293_g2000104153489032_pallasbulk_716_5_alg».proof.Proof.Spec
import proofs.«176293_g2000104153489032_pallasbulk_716_5_alg».proof.Proof.RefRegion1Pieces
import proofs.«176293_g2000104153489032_pallasbulk_716_5_alg».proof.Proof.RefRegion1Payload
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem

namespace Cert.ReferenceIdeal.GcnR1

open Cert.ReferenceIdeal Cert.ReferenceIdeal.Gen

open Idealize.ShloMosaic.ValueIdx

variable (V : (c : Dev nD) → (b : Ref sig .tc) → Buf (Elt Ideal) ((c : Thread nD τ).loc b))

/-- The windows' block indices at a point, decided over the grid: the point `t` is (t / 8, t % 8). -/
theorem idx_facts : ∀ t : Fin cfg1.N,
    win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 2) = 0 ∧ win1_2.index t (1 : Fin 2) = 0
    ∧ win1_3.index t (0 : Fin 2) = t.val / 8 ∧ win1_3.index t (1 : Fin 2) = 0 :=
  (by decide +kernel : ∀ t : Fin grid1.N, _)

/-- The first window's block at point (i, kk), at (p, k'): adj at row 1024 i + p, column 1024 kk + k'. -/
theorem adj_block (c : Dev nD) (t : Fin cfg1.N) (i kk : Fin 8) (hi : t.val / 8 = i.val) (hk : t.val % 8 = kk.val)
    (p k' : Fin 1024) :
    (iblk1 V c 0 t : FVec Ideal S1024x1024 .f32) (ix2 p k')
      = (V c main_arg1 : Gcn.Sadj.Idx → EReal) (ix2 (Gcn.tileIdx i p) (Gcn.tileIdx kk k')) := by
  obtain ⟨e0, e1, -⟩ := idx_facts t
  unfold iblk1
  rw [View.read_apply]
  show V c main_arg1 _ = V c main_arg1 _
  congr 1
  funext a
  apply Fin.ext
  match a with
  | ⟨0, _⟩ => show win1_0.index t (0 : Fin 2) * 1024 + 1 * p.val = 1024 * i.val + p.val; rw [e0, hi]; omega
  | ⟨1, _⟩ => show win1_0.index t (1 : Fin 2) * 1024 + 1 * k'.val = 1024 * kk.val + k'.val; rw [e1, hk]; omega

/-- The second window's block at point (i, kk), at (k', q): the support array at row 1024 kk + k', column q. -/
theorem sup_block (c : Dev nD) (t : Fin cfg1.N) (kk : Fin 8) (hk : t.val % 8 = kk.val) (k' : Fin 1024) (q : Fin 256) :
    (iblk1 V c 1 t : FVec Ideal S1024x256 .bf16) (ix2 k' q)
      = (V c main_v2 : Gcn.Sx.Idx → EReal) (ix2 (Gcn.tileIdx kk k') q) := by
  obtain ⟨-, -, e0, e1, -⟩ := idx_facts t
  unfold iblk1
  rw [View.read_apply]
  show V c main_v2 _ = V c main_v2 _
  congr 1
  funext a
  apply Fin.ext
  match a with
  | ⟨0, _⟩ => show win1_1.index t (0 : Fin 2) * 1024 + 1 * k'.val = 1024 * kk.val + k'.val; rw [e0, hk]; omega
  | ⟨1, _⟩ => show win1_1.index t (1 : Fin 2) * 256 + 1 * q.val = q.val; rw [e1]; omega

/-- The third window's block is the bias row. -/
theorem bias_block (c : Dev nD) (t : Fin cfg1.N) (q : Fin 256) :
    (iblk1 V c 2 t : FVec Ideal S1x256 .f32) (ix2 0 q) = (V c main_v4 : Gcn.Srow.Idx → EReal) (ix2 0 q) := by
  obtain ⟨-, -, -, -, e0, e1, -⟩ := idx_facts t
  unfold iblk1
  rw [View.read_apply]
  show V c main_v4 _ = V c main_v4 _
  congr 1
  funext a
  apply Fin.ext
  match a with
  | ⟨0, _⟩ => show win1_2.index t (0 : Fin 2) * 1 + 1 * 0 = 0; rw [e0]
  | ⟨1, _⟩ => show win1_2.index t (1 : Fin 2) * 256 + 1 * q.val = q.val; rw [e1]; omega

/-- The product summed at (1024 i + p, q): adj(1024 i + p, k) · support(k, q). -/
def term (adj : Gcn.Sadj.Idx → EReal) (s : Gcn.Sx.Idx → EReal) (i : Fin 8) (p : Fin 1024) (q : Fin 256) (k : Fin 8192) :
    EReal :=
  adj (ix2 (Gcn.tileIdx i p) k) * s (ix2 k q)

/-- The accumulation step at point (i, kk), on a buffer holding `xo`: at (p, q) it adds tile kk of the products. -/
theorem step (c : Dev nD) (t : Fin cfg1.N) (i kk : Fin 8) (hi : t.val / 8 = i.val) (hk : t.val % 8 = kk.val)
    (xo : FVec Ideal S1024x256 .f32) (p : Fin 1024) (q : Fin 256) :
    k1_pay2 (F := Ideal) (iblk1 V c 0 t) xo (iblk1 V c 1 t) (ix2 p q)
      = xo (ix2 p q) + Gcn.tileSum (term (V c main_arg1) (V c main_v2) i p q) kk := by
  refine (pay2_apply (iblk1 V c 0 t) xo (iblk1 V c 1 t) p q).trans ?_
  refine congrArg (xo (ix2 p q) + ·) ?_
  show _ = ∑ k' : Fin 1024, term (V c main_arg1) (V c main_v2) i p q (Gcn.tileIdx kk k')
  refine Finset.sum_congr rfl fun k' _ => ?_
  rw [adj_block V c t i kk hi hk p k', sup_block V c t kk hk k' q]
  rfl

/-- One tile from zero. -/
theorem partialSum_one (f : Fin 8192 → EReal) (h : 1 ≤ 8) : Gcn.partialSum 0 f 1 h = Gcn.tileSum f ⟨0, h⟩ :=
  (Gcn.partialSum_succ 0 f 0 h).trans (zero_add _)

/-- At the first point of a row of tiles the buffer restarts from zero: it holds tile 0 of the products. -/
theorem at_first (c : Dev nD) (t : Fin cfg1.N) (h0 : t.val % 8 = 0) (i kk : Fin 8) (hi : t.val / 8 = i.val)
    (hk : t.val % 8 = kk.val) (p : Fin 1024) (q : Fin 256) :
    outsAt1 V c t.val t.isLt (ix2 p q) = Gcn.tileSum (term (V c main_arg1) (V c main_v2) i p q) kk := by
  have h1 : ¬t.val % 8 = 7 := by omega
  rw [outsAt1_A V c t h0 h1,
    out_A c (grid1.coords t) (ms1_0 t) (hs1_0 t) (ms1_1 t) (hs1_1 t) (ms1_2 t) (hs1_2 t) (ms1_3 t) (hs1_3 t)
      ((hcond1_0 t).mpr h0) (fun h => h1 ((hcond1_1 t).mp h)) (iblk1 V c 0 t) (iblk1 V c 1 t) (iblk1 V c 2 t)]
  refine (step V c t i kk hi hk k1_pay1 p q).trans ?_
  rw [pay1_apply, zero_add]

/-- At a point that is neither first nor last, the buffer gains tile kk of the products. -/
theorem at_mid (c : Dev nD) (t : Fin cfg1.N) (h0 : ¬t.val % 8 = 0) (h1 : ¬t.val % 8 = 7) (i kk : Fin 8)
    (hi : t.val / 8 = i.val) (hk : t.val % 8 = kk.val) (p : Fin 1024) (q : Fin 256) :
    outsAt1 V c t.val t.isLt (ix2 p q)
      = outsAt1 V c (t.val - 1) (Nat.lt_of_le_of_lt (Nat.sub_le _ _) t.isLt) (ix2 p q)
        + Gcn.tileSum (term (V c main_arg1) (V c main_v2) i p q) kk := by
  rw [outsAt1_B V c t h0 h1,
    out_B c (grid1.coords t) (ms1_0 t) (hs1_0 t) (ms1_1 t) (hs1_1 t) (ms1_2 t) (hs1_2 t) (ms1_3 t) (hs1_3 t)
      (fun h => h0 ((hcond1_0 t).mp h)) (fun h => h1 ((hcond1_1 t).mp h)) (iblk1 V c 0 t) (iblk1 V c 1 t) (iblk1 V c 2 t)
      (outsAt1 V c (t.val - 1) (Nat.lt_of_le_of_lt (Nat.sub_le _ _) t.isLt))]
  exact step V c t i kk hi hk _ p q

/-- At the last point of a row of tiles the buffer gains the last tile of the products, then the bias row's entry. -/
theorem at_last (c : Dev nD) (t : Fin cfg1.N) (h0 : ¬t.val % 8 = 0) (h1 : t.val % 8 = 7) (i kk : Fin 8)
    (hi : t.val / 8 = i.val) (hk : t.val % 8 = kk.val) (p : Fin 1024) (q : Fin 256) :
    outsAt1 V c t.val t.isLt (ix2 p q)
      = outsAt1 V c (t.val - 1) (Nat.lt_of_le_of_lt (Nat.sub_le _ _) t.isLt) (ix2 p q)
        + Gcn.tileSum (term (V c main_arg1) (V c main_v2) i p q) kk + (V c main_v4 : Gcn.Srow.Idx → EReal) (ix2 0 q) := by
  rw [outsAt1_C V c t h0 h1,
    out_C c (grid1.coords t) (ms1_0 t) (hs1_0 t) (ms1_1 t) (hs1_1 t) (ms1_2 t) (hs1_2 t) (ms1_3 t) (hs1_3 t)
      (fun h => h0 ((hcond1_0 t).mp h)) ((hcond1_1 t).mpr h1) (iblk1 V c 0 t) (iblk1 V c 1 t) (iblk1 V c 2 t)
      (outsAt1 V c (t.val - 1) (Nat.lt_of_le_of_lt (Nat.sub_le _ _) t.isLt))]
  refine (pay3_apply (k1_pay2 (iblk1 V c 0 t) (outsAt1 V c (t.val - 1) (Nat.lt_of_le_of_lt (Nat.sub_le _ _) t.isLt))
    (iblk1 V c 1 t)) (iblk1 V c 2 t) p q).trans ?_
  rw [step V c t i kk hi hk _ p q, bias_block V c t q]

/-- What the last point of a row of tiles adds on top of the tiles: the bias row's entry; the other points, nothing. -/
def closing (brow : Gcn.Srow.Idx → EReal) (q : Fin 256) (m : ℕ) : EReal := if m = 7 then brow (ix2 0 q) else 0

theorem closing_of_ne (brow : Gcn.Srow.Idx → EReal) (q : Fin 256) (m : ℕ) (h : ¬m = 7) : closing brow q m = 0 := if_neg h

theorem closing_last (brow : Gcn.Srow.Idx → EReal) (q : Fin 256) (m : ℕ) (h : m = 7) : closing brow q m = brow (ix2 0 q) :=
  if_pos h

/-- THE ACCUMULATION: after the point n = 8 i + m the buffer holds, at (p, q), the sum of the first m + 1 tiles of
    the products of row 1024 i + p, and at m = 7 the bias row's entry on top. -/
theorem outsAt_eq (c : Dev nD) : ∀ (n : ℕ) (hn : n < cfg1.N) (i : Fin 8) (m : ℕ) (hm : m < 8), n / 8 = i.val → n % 8 = m →
    ∀ (p : Fin 1024) (q : Fin 256),
      outsAt1 V c n hn (ix2 p q)
        = Gcn.partialSum 0 (term (V c main_arg1) (V c main_v2) i p q) (m + 1) hm
          + closing (V c main_v4) q m
  | 0, hn, i, m, hm, hi, hk, p, q => by
    obtain rfl : m = 0 := by omega
    rw [closing_of_ne _ _ _ (by decide), add_zero]
    exact (at_first V c ⟨0, hn⟩ rfl i ⟨0, hm⟩ hi rfl p q).trans (partialSum_one _ _).symm
  | n + 1, hn, i, m, hm, hi, hk, p, q => by
    have hN : n + 1 < 64 := lt_of_lt_of_eq hn N_1
    by_cases h0 : (n + 1) % 8 = 0
    · obtain rfl : m = 0 := by omega
      rw [closing_of_ne _ _ _ (by decide), add_zero]
      exact (at_first V c ⟨n + 1, hn⟩ h0 i ⟨0, hm⟩ hi h0 p q).trans (partialSum_one _ _).symm
    · obtain ⟨m', rfl⟩ : ∃ m', m = m' + 1 := ⟨m - 1, by omega⟩
      have ih := outsAt_eq c n (Nat.lt_of_succ_lt hn) i m' (by omega) (by omega) (by omega) p q
      rw [closing_of_ne _ _ _ (by omega), add_zero] at ih
      by_cases h7 : (n + 1) % 8 = 7
      · rw [closing_last _ _ _ (by omega)]
        refine (at_last V c ⟨n + 1, hn⟩ h0 h7 i ⟨m' + 1, hm⟩ hi hk p q).trans ?_
        show outsAt1 V c n _ (ix2 p q) + _ + _ = _
        rw [ih, ← Gcn.partialSum_succ 0 _ (m' + 1) hm]
      · rw [closing_of_ne _ _ _ (by omega), add_zero]
        refine (at_mid V c ⟨n + 1, hn⟩ h0 h7 i ⟨m' + 1, hm⟩ hi hk p q).trans ?_
        show outsAt1 V c n _ (ix2 p q) + _ = _
        rw [ih, ← Gcn.partialSum_succ 0 _ (m' + 1) hm]

/-- At the last point of row-block i the buffer holds the result: at (p, q), the layer at (1024 i + p, q). -/
theorem outsAt_last (c : Dev nD) (t : Fin cfg1.N) (h7 : t.val % 8 = 7) (i : Fin 8) (hi : t.val / 8 = i.val)
    (p : Fin 1024) (q : Fin 256) :
    outsAt1 V c t.val t.isLt (ix2 p q)
      = Gcn.outOf (V c main_arg1) (V c main_v2) (V c main_v4) (ix2 (Gcn.tileIdx i p) q) := by
  rw [outsAt_eq V c t.val t.isLt i 7 (by decide) hi h7 p q, closing_last _ _ _ rfl, Gcn.outOf_apply]
  exact congrArg (· + (V c main_v4 : Gcn.Srow.Idx → EReal) (ix2 0 q)) (Gcn.partialSum_all (term (V c main_arg1) (V c main_v2) i p q))

end Cert.ReferenceIdeal.GcnR1

end
-- ==== Proof.RefRegion1.lean ====
/-
  The second call's result array: every row-block is written back once, at the last point of its row of tiles, holding
  the layer's values; the eight row-blocks cover the array. So the array ends holding
      out(p, q) = ( Σ_{k < 8192} adj(p, k) · support(k, q) ) + bias(q)
  of the arrays the call finds.
-/
import proofs.«176293_g2000104153489032_pallasbulk_716_5_alg».proof.Defs
import proofs.«176293_g2000104153489032_pallasbulk_716_5_alg».proof.Proof.Gen.ReferenceIdeal.Frame
import proofs.«176293_g2000104153489032_pallasbulk_716_5_alg».proof.Proof.Spec
import proofs.«176293_g2000104153489032_pallasbulk_716_5_alg».proof.Proof.RefRegion1Acc
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem

namespace Cert.ReferenceIdeal.GcnR1

open Cert.ReferenceIdeal Cert.ReferenceIdeal.Gen

open Idealize.ShloMosaic.ValueIdx

variable (V : (c : Dev nD) → (b : Ref sig .tc) → Buf (Elt Ideal) ((c : Thread nD τ).loc b))

/-- What the point `t` writes back, when it writes back (t % 8 = 7), is block t / 8 of the layer's values. -/
theorem flushed_eq (c : Dev nD) (t : Fin cfg1.N) (hf : (cfg1.win 3).flush t = true) :
    (dat1 V c).flushed 3 t
      = ((cfg1.win 3).blk t).view.read (Elt Ideal) (Gcn.outOf (V c main_arg1) (V c main_v2) (V c main_v4)) := by
  have hN : t.val < 64 := lt_of_lt_of_eq t.isLt N_1
  have h7 : t.val % 8 = 7 := (flush1_3 t).mp hf
  obtain ⟨-, -, -, -, -, -, e0, e1⟩ := idx_facts t
  show (cfg1.win 3).cut (grid1.coords t) ((dat1 V c).after 3 t) = _
  rw [after1_3]
  funext j
  revert j
  show ∀ j : S1024x256.Idx, outsAt1 V c t.val t.isLt j
    = Gcn.outOf (V c main_arg1) (V c main_v2) (V c main_v4) (((cfg1.win 3).blk t).view.emb j)
  intro j
  obtain ⟨p, q, rfl⟩ : ∃ (p : Fin 1024) (q : Fin 256), j = ix2 p q := ⟨j 0, j 1, eq_ix2 j⟩
  rw [outsAt_last V c t h7 ⟨t.val / 8, by omega⟩ rfl p q]
  congr 1
  funext a
  apply Fin.ext
  match a with
  | ⟨0, _⟩ => show 1024 * (t.val / 8) + p.val = win1_3.index t (0 : Fin 2) * 1024 + 1 * p.val; rw [e0]; omega
  | ⟨1, _⟩ => show q.val = win1_3.index t (1 : Fin 2) * 256 + 1 * q.val; rw [e1]; omega

/-- An index of the array is in point `t`'s block iff each coordinate is in the block's range on its axis. -/
theorem mem_blk (t : Fin cfg1.N) (i : Gcn.Sx.Idx) :
    i ∈ ((cfg1.win 3).blk t).view.set
      ↔ ∀ a : Fin 2, win1_3.index t a * S1024x256.size a ≤ (i a).val
          ∧ (i a).val < win1_3.index t a * S1024x256.size a + S1024x256.size a := by
  show i ∈ ((View.whole main_v5).slice (win1_3.rect t)).set ↔ _
  rw [View.set_slice_whole, Rect.mem_set_unit]
  exact Iff.rfl

/-- Row r of the array is in the block written back at the point 8 (r / 1024) + 7. -/
theorem cover (i : Gcn.Sx.Idx) :
    ∃ t : Fin cfg1.N, (cfg1.win 3).flush t = true ∧ i ∈ ((cfg1.win 3).blk t).view.set := by
  have h0 : (i 0).val < 8192 := (i 0).isLt
  have h1 : (i 1).val < 256 := (i 1).isLt
  have hN : cfg1.N = 64 := N_1
  obtain ⟨t, ht⟩ : ∃ t : Fin cfg1.N, t.val = 8 * ((i 0).val / 1024) + 7 := ⟨⟨_, by rw [hN]; omega⟩, rfl⟩
  obtain ⟨-, -, -, -, -, -, e0, e1⟩ := idx_facts t
  refine ⟨t, (flush1_3 t).mpr (by omega), ?_⟩
  rw [mem_blk]
  intro a
  match a with
  | ⟨0, _⟩ =>
    show win1_3.index t (0 : Fin 2) * 1024 ≤ (i 0).val ∧ (i 0).val < win1_3.index t (0 : Fin 2) * 1024 + 1024
    rw [e0]; omega
  | ⟨1, _⟩ =>
    show win1_3.index t (1 : Fin 2) * 256 ≤ (i 1).val ∧ (i 1).val < win1_3.index t (1 : Fin 2) * 256 + 256
    rw [e1]; omega

/-- THE RESULT ARRAY of the second call, at any contents `V` it is entered with: the layer's values of the adjacency
    array, the support array and the bias row it finds. -/
theorem final (c : Dev nD) :
    (dat1 V c).arrAt 3 cfg1.N = Gcn.outOf (V c main_arg1) (V c main_v2) (V c main_v4) :=
  (dat1 V c).arrAt_eq_of_cover 3 _ (flushed_eq V c) cover

end Cert.ReferenceIdeal.GcnR1

end
-- ==== Proof.RefValue.lean ====
/-
  The reference's result in terms of its arguments. Its second region is entered with adj, with the first region's
  result and with the bias as a row; the first region is entered with x and w and leaves their support matrix. So
  the second region's result array — the accumulated tile products of adj against that matrix, plus the bias — is the
  layer of the four arguments.
-/
import proofs.«176293_g2000104153489032_pallasbulk_716_5_alg».proof.Defs
import proofs.«176293_g2000104153489032_pallasbulk_716_5_alg».proof.Proof.Spec
import proofs.«176293_g2000104153489032_pallasbulk_716_5_alg».proof.Proof.RefRun
import proofs.«176293_g2000104153489032_pallasbulk_716_5_alg».proof.Proof.RefHost
import proofs.«176293_g2000104153489032_pallasbulk_716_5_alg».proof.Proof.RefRegion0
import proofs.«176293_g2000104153489032_pallasbulk_716_5_alg».proof.Proof.RefRegion1

noncomputable section

namespace Cert.ReferenceIdeal.GcnValue

open Cert.ReferenceIdeal Cert.ReferenceIdeal.Gen
open Idealize.ShloMosaic Idealize.ShloMosaic.TcCoe Idealize.SL.Sem

variable (m : (ℓ : Loc nD τ sig) → Buf (Elt Ideal) ℓ) (ρ : Dev nD → PrngReg)

/-- What the second region leaves in the result array, in the arguments: that region is entered with adj, with the
    first region's result — the support matrix of x and w, which the first region is entered with — and with the
    bias as a row. -/
theorem result_eq (c : Dev nD) :
    (dat1 (V8 m ρ) c).arrAt 3 cfg1.N
      = Gcn.out (m ((c : Thread nD τ).loc main_arg0)) (m ((c : Thread nD τ).loc main_arg1))
          (m ((c : Thread nD τ).loc main_arg2)) (m ((c : Thread nD τ).loc main_arg3)) := by
  rw [GcnR1.final (V8 m ρ) c, GcnHost.V8_adj m ρ c]
  refine Gcn.outOf_eq_out _ _ _ _ _ _ (fun k q => ?_) (fun q => GcnHost.V8_bias m ρ c q)
  rw [GcnHost.V8_support m ρ c, GcnR0.final (V4 m ρ) c, GcnHost.V4_x m ρ c, GcnHost.V4_w m ρ c]
  rfl

/-- Every weakly fair execution of the reference terminates with the layer's result in its result array and the
    arguments unchanged. -/
theorem run : θ_run (defs (F := Ideal)) (onTc (τ := τ) (main (F := Ideal))) ⟨m, fun _ => 0, ρ⟩ fun r => ∀ c : Dev nD,
      r.2.mem ((c : Thread nD τ).loc main_v5)
        = Gcn.out (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (result_eq m ρ c), (h c).2⟩) (GcnRun.run_blocks m ρ)

end Cert.ReferenceIdeal.GcnValue

end
-- ==== Proof.Claims.lean ====
/-
  The five claims. The three frames are the generated frame runs. The idealization changed nothing. For the value
  claim both programs are run from memories that agree on the arguments: the kernel ends with the layer
      out(p, q) = ( Σ_k adj(p, k) · Σ_l x(k, l) · w(l, q) ) + bias(q)
  of its arguments in its result array, the reference with the same layer of its own arguments, and the arguments
  are equal.
-/
import proofs.«176293_g2000104153489032_pallasbulk_716_5_alg».proof.Defs
import proofs.«176293_g2000104153489032_pallasbulk_716_5_alg».proof.Proof.Gen.Kernel.Frame
import proofs.«176293_g2000104153489032_pallasbulk_716_5_alg».proof.Proof.Gen.KernelIdeal.Frame
import proofs.«176293_g2000104153489032_pallasbulk_716_5_alg».proof.Proof.Gen.ReferenceIdeal.Frame
import proofs.«176293_g2000104153489032_pallasbulk_716_5_alg».proof.Proof.Gen.Pre_finite_inputs
import proofs.«176293_g2000104153489032_pallasbulk_716_5_alg».proof.Proof.Spec
import proofs.«176293_g2000104153489032_pallasbulk_716_5_alg».proof.Proof.KernelRun
import proofs.«176293_g2000104153489032_pallasbulk_716_5_alg».proof.Proof.RefValue

noncomputable section

namespace Cert.Proof.GcnClaims

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- The idealization rewrote no operation of the kernel. -/
theorem preserves : Cert.preserves_Kernel_KernelIdeal := trivial

/-- Over the extended reals both programs end with the same array: the kernel's one long product of each adj row panel
    against the resident support matrix, plus the bias, and the reference's eight accumulated tile products per
    block, plus the bias, are the same sums; the arguments agree, so the two results are one function of them. -/
theorem algebraic : Cert.algebraic_KernelIdeal_ReferenceIdeal := by
  intro m ρ m' ρ' _ hagree
  refine ⟨fun c => Gcn.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.GcnValue.run m ρ, ?_⟩
  refine (θ_run Cert.ReferenceIdeal.defs _ _).mono (fun r h c => ⟨(h c).1.trans ?_, (h c).2⟩)
    (Cert.ReferenceIdeal.GcnValue.run m' ρ')
  rw [(hagree c).1, (hagree c).2.1, (hagree c).2.2.1, (hagree c).2.2.2]

end Cert.Proof.GcnClaims

end
-- ==== Proof.lean ====
/-
  A dense graph-convolution layer, out = adj · (x · w) + bias over f32[8192, 256], f32[8192, 8192], f32[256, 256],
  f32[256], computed two ways. The kernel is one pipelined region of sixteen points: the first point forms the support
  matrix x · w once into a buffer that stays resident, and every point multiplies one panel of 512 rows of adj by it in
  a single product over all 8192 columns and adds the bias. The reference is two regions: the first forms the support
  matrix block by block, the second accumulates, for each block of 1024 rows, eight products over tiles of 1024 columns
  into its output block, starting from zero, and adds the bias after the last tile.
  Read over the extended reals the narrowings to the 16-bit format are the identity and a product into a zero
  accumulator is a plain sum, so both results are ( Σ_k adj(p, k) · Σ_l x(k, l) · w(l, q) ) + bias(q): the reference's
  eight tile sums taken one after another from zero are the kernel's one sum, because addition on the extended reals
  is commutative and associative. No finiteness of the inputs is used.
  Spec.lean states the layer and the sum by tiles. KernelRun.lean reads the kernel's result array, over KernelPieces
  (what one run of the body stores), KernelScratch (the resident buffer holds the support matrix at every point),
  KernelPayload and KernelLayer (the stored values at an index) and KernelBlocks (which rows each block reads and covers).
  RefRegion0.lean reads the reference's first region; RefRegion1.lean its second, over RefRegion1Pieces, RefRegion1Payload
  and RefRegion1Acc (the induction over the sixty-four points); RefHost.lean its host operations (pads of zero width, one
  recast of the bias to a row), RefRun.lean its run with the result array named, RefValue.lean puts them together.
  Claims.lean states the five claims. LibPad.lean, LibPlain.lean and LibCover.lean hold general lemmas.
-/
import proofs.«176293_g2000104153489032_pallasbulk_716_5_alg».proof.Defs
import proofs.«176293_g2000104153489032_pallasbulk_716_5_alg».proof.Proof.Gen.Kernel
import proofs.«176293_g2000104153489032_pallasbulk_716_5_alg».proof.Proof.Gen.KernelIdeal
import proofs.«176293_g2000104153489032_pallasbulk_716_5_alg».proof.Proof.Gen.ReferenceIdeal
import proofs.«176293_g2000104153489032_pallasbulk_716_5_alg».proof.Proof.Gen.Pre_finite_inputs
import proofs.«176293_g2000104153489032_pallasbulk_716_5_alg».proof.Proof.Claims

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    GcnClaims.frame_k, GcnClaims.frame_ki, GcnClaims.frame_ri, GcnClaims.preserves, GcnClaims.algebraic⟩

end Cert.Proof

end
